-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x16x2048x2048 : Shape := ⟨4, ![2, 16, 2048, 2048]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_v13 : IVec S_ 1) (main_v16 : IVec S2x16x2048x2048 1) : IVec S_ 1 :=
  let main_c_5 : IVec S_ 1 := constantI S_ 1 1#1
  let main_v17 : IVec S_ 1 := (fun x v => Host.reduce IntOp.andi x v reducesTo_S2x16x2048x2048_S_d0_1_2_3 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2x2048x1024 .f32) (main_arg1 : FVec F S2x2048x1024 .f32) (main_arg2 : FVec F S2x2048x1024 .f32) (main_arg3 : FVec F S2x16x2048x2048 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S2x16x2048x2048 .f32 := Host.absf main_arg3
  let main_cst_4 : FVec F S_ .f32 := constant S_ .f32 0x7F800000#32
  let main_v15 : FVec F S2x16x2048x2048 .f32 := broadcastInDim S2x16x2048x2048 ![] bcast_S_S2x16x2048x2048 main_cst_4
  let main_v16 : IVec S2x16x2048x2048 1 := cmpf .olt main_v14 main_v15
  fn_part1 (F := F) main_arg4 main_arg5 main_arg6 main_arg7 main_arg8 main_arg9 main_arg10 main_arg11 main_v13 main_v16
-- ==== Kernel.lean ====
abbrev S2x2048x1024 : Shape := ⟨3, ![2, 2048, 1024]⟩
abbrev S2x16x2048x2048 : Shape := ⟨4, ![2, 16, 2048, 2048]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S1x512x128 : Shape := ⟨3, ![1, 512, 128]⟩
abbrev S1x2048x128 : Shape := ⟨3, ![1, 2048, 128]⟩
abbrev S1x2x512x2048 : Shape := ⟨4, ![1, 2, 512, 2048]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S1x1x512x2048 : Shape := ⟨4, ![1, 1, 512, 2048]⟩
abbrev S512 : Shape := ⟨1, ![512]⟩
abbrev S512x1 : Shape := ⟨2, ![512, 1]⟩

abbrev nBuf : Space → Nat
  | .hbm => 30
  | .vmem => 36
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x16x2048x2048, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x16x2048x2048, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1x512x128, .f32⟩
  | .local _ .vmem, ⟨19, _⟩ => ⟨S1x512x128, .f32⟩
  | .local _ .vmem, ⟨20, _⟩ => ⟨S1x2048x128, .f32⟩
  | .local _ .vmem, ⟨21, _⟩ => ⟨S1x2048x128, .f32⟩
  | .local _ .vmem, ⟨22, _⟩ => ⟨S1x2048x128, .f32⟩
  | .local _ .vmem, ⟨23, _⟩ => ⟨S1x2048x128, .f32⟩
  | .local _ .vmem, ⟨24, _⟩ => ⟨S1x2x512x2048, .f32⟩
  | .local _ .vmem, ⟨25, _⟩ => ⟨S1x2x512x2048, .f32⟩
  | .local _ .vmem, ⟨26, _⟩ => ⟨S1x512x128, .f32⟩
  | .local _ .vmem, ⟨27, _⟩ => ⟨S1x512x128, .f32⟩
  | .local _ .vmem, ⟨28, _⟩ => ⟨S1x2x512x2048, .f32⟩
  | .local _ .vmem, ⟨29, _⟩ => ⟨S1x2x512x2048, .f32⟩
  | .local _ .vmem, ⟨30, _⟩ => ⟨S1024x1024, .f32⟩
  | .local _ .vmem, ⟨31, _⟩ => ⟨S1024x1024, .f32⟩
  | .local _ .vmem, ⟨32, _⟩ => ⟨S1024x1024, .f32⟩
  | .local _ .vmem, ⟨33, _⟩ => ⟨S1x1024, .f32⟩
  | .local _ .vmem, ⟨34, _⟩ => ⟨S1024x1024, .f32⟩
  | .local _ .vmem, ⟨35, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![2, 8, 4], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc3_transform_5 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage3_0 : Fin 2 → Memref sig .tc .vmem S1x512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x2x512x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x512x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev stage3_5 : Fin 2 → Memref sig .tc .vmem S1x2x512x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x2048x1024_S4096x1024 : S2x2048x1024.ShapeCasts S4096x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x1024_S2x2048x1024 : S4096x1024.ShapeCasts S2x2048x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S512x128_o0_64_S512x64 : S512x128.Slices ![0, 64] S512x64
  slices_S2048x128_o0_0_S2048x64 : S2048x128.Slices ![0, 0] S2048x64
  slices_S2048x128_o0_64_S2048x64 : S2048x128.Slices ![0, 64] S2048x64
  inb_S1x2x512x2048_S1x1x512x2048_0_0_0_0 : ∀ a, (![0, 0, 0, 0] : Fin 4 → Nat) a + S1x1x512x2048.size a ≤ S1x2x512x2048.size a
  h_S1x1x512x2048 : 0 < S1x1x512x2048.numel
  shapeCasts_S1x1x512x2048_S512x2048 : S1x1x512x2048.ShapeCasts S512x2048
  inb_S1x2x512x2048_S1x1x512x2048_0_1_0_0 : ∀ a, (![0, 1, 0, 0] : Fin 4 → Nat) a + S1x1x512x2048.size a ≤ S1x2x512x2048.size a
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  concatenates_S512x64_S512x64_S512x128_d1 : Shape.Concatenates [S512x64, S512x64] S512x128 1
  shapeCasts_S512x128_S1x512x128 : S512x128.ShapeCasts S1x512x128
  dot_S1024x1024_S1024x1024_S1024x1024_1_1_0_0_n_n_wf : DotDims.WF S1024x1024 S1024x1024 S1024x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .f32 = 32 ∨ (Rect.block (s := S4096x1024) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .f32 = 32 ∨ (Rect.block (s := S4096x1024) S1024x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x128.size a ≤ S2x2048x1024.size a
  hwx3_0 : ∀ i : grid3.Coords, EltTy.bits .f32 = 32 ∨ (Rect.block (s := S2x2048x1024) S1x512x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2048x128.size a ≤ S2x2048x1024.size a
  hwx3_1 : ∀ i : grid3.Coords, EltTy.bits .f32 = 32 ∨ (Rect.block (s := S2x2048x1024) S1x2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048x128.size a ≤ S2x2048x1024.size a
  hwx3_2 : ∀ i : grid3.Coords, EltTy.bits .f32 = 32 ∨ (Rect.block (s := S2x2048x1024) S1x2048x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x2x512x2048.size a ≤ S2x16x2048x2048.size a
  hwx3_3 : ∀ i : grid3.Coords, EltTy.bits .f32 = 32 ∨ (Rect.block (s := S2x16x2048x2048) S1x2x512x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x512x128.size a ≤ S2x2048x1024.size a
  hwx3_4 : ∀ i : grid3.Coords, EltTy.bits .f32 = 32 ∨ (Rect.block (s := S2x2048x1024) S1x512x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x2x512x2048.size a ≤ S2x16x2048x2048.size a
  hwx3_5 : ∀ i : grid3.Coords, EltTy.bits .f32 = 32 ∨ (Rect.block (s := S2x16x2048x2048) S1x2x512x2048.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x1024.size a
  hwx4_0 : ∀ i : grid4.Coords, EltTy.bits .f32 = 32 ∨ (Rect.block (s := S4096x1024) S1024x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S4096x1024.size a
  hwx4_3 : ∀ i : grid4.Coords, EltTy.bits .f32 = 32 ∨ (Rect.block (s := S4096x1024) S1024x1024.size (cc4_transform_3 i) (hinb4_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v9) S1x512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1x2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x2x512x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v12_0) S1x512x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v12_1) S1x2x512x2048.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v13) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v14) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v15) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S2x16x2048x2048 : Shape := ⟨4, ![2, 16, 2048, 2048]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x16x2048x2048, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S2x2048x1024, .f32⟩
  | .hbm, ⟨13, _⟩ => ⟨S1x1x1024, .f32⟩
  | .hbm, ⟨14, _⟩ => ⟨S2x2048x1024, .f32⟩
  | .hbm, ⟨15, _⟩ => ⟨S2x2048x1024, .f32⟩
  | .hbm, ⟨16, _⟩ => ⟨S2x2048x16x64, .f32⟩
  | .hbm, ⟨17, _⟩ => ⟨S2x16x2048x64, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x16x64, .f32⟩
  | .hbm, ⟨23, _⟩ => ⟨S2x16x2048x64, .f32⟩
  | .hbm, ⟨24, _⟩ => ⟨S2x2048x1024, .f32⟩
  | .hbm, ⟨25, _⟩ => ⟨S1x1x1024, .f32⟩
  | .hbm, ⟨26, _⟩ => ⟨S2x2048x1024, .f32⟩
  | .hbm, ⟨27, _⟩ => ⟨S2x2048x1024, .f32⟩
  | .hbm, ⟨28, _⟩ => ⟨S2x2048x16x64, .f32⟩
  | .hbm, ⟨29, _⟩ => ⟨S2x16x2048x64, .f32⟩
  | .hbm, ⟨30, _⟩ => ⟨S2x16x2048x2048, .f32⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S_, .f32⟩
  | .hbm, ⟨36, _⟩ => ⟨S2x16x2048, .f32⟩
  | .hbm, ⟨37, _⟩ => ⟨S_, .f32⟩
  | .hbm, ⟨38, _⟩ => ⟨S2x16x2048, .f32⟩
  | .hbm, ⟨39, _⟩ => ⟨S2x16x2048, .f32⟩
  | .hbm, ⟨40, _⟩ => ⟨S2x16x2048x1, .f32⟩
  | .hbm, ⟨41, _⟩ => ⟨S2x16x2048x2048, .f32⟩
  | .hbm, ⟨42, _⟩ => ⟨S2x16x2048x2048, .f32⟩
  | .hbm, ⟨43, _⟩ => ⟨S2x16x2048x2048, .f32⟩
  | .hbm, ⟨44, _⟩ => ⟨S_, .f32⟩
  | .hbm, ⟨45, _⟩ => ⟨S2x16x2048, .f32⟩
  | .hbm, ⟨46, _⟩ => ⟨S2x16x2048x1, .f32⟩
  | .hbm, ⟨47, _⟩ => ⟨S2x16x2048x2048, .f32⟩
  | .hbm, ⟨48, _⟩ => ⟨S2x16x2048x2048, .f32⟩
  | .hbm, ⟨49, _⟩ => ⟨S2x16x2048x64, .f32⟩
  | .hbm, ⟨50, _⟩ => ⟨S2x2048x16x64, .f32⟩
  | .hbm, ⟨51, _⟩ => ⟨S2x2048x1024, .f32⟩
  | .hbm, ⟨52, _⟩ => ⟨S2x2048x1024, .f32⟩
  | .hbm, ⟨53, _⟩ => ⟨S1x1x1024, .f32⟩
  | .hbm, ⟨54, _⟩ => ⟨S2x2048x1024, .f32⟩
  | .hbm, ⟨55, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Chain.lean ====
import proofs.«127580_j11682311045245_2_alg».proof.Proof.Gen.KernelIdeal.Frame

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.Sem
open Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-!
  The contents each region finds, and the two results, walked back through @main's segments: a host stretch is
  reshapes only (a reshape writes its result buffer and nothing else), and a region changes its own arrays and nothing
  else, so every buffer is either a reshape of an earlier buffer, a region's output array, or what was launched.
-/

variable (c : Dev nD)

/-! ## Buffers nothing has written yet -/

theorem W1_main_arg4 : W1 m ρ c (Proc.devRef .tc main_arg4) = m ((c : Thread nD τ).loc main_arg4) :=
  (show W1 m ρ c (Proc.devRef .tc main_arg4) = W0 m ρ c (Proc.devRef .tc main_arg4) from by show StableHlo.after hostOps0 (W0 m ρ c) (Proc.devRef .tc main_arg4) = _; after_results)
theorem W3_main_arg6 : W3 m ρ c (Proc.devRef .tc main_arg6) = m ((c : Thread nD τ).loc main_arg6) :=
  ((show W3 m ρ c (Proc.devRef .tc main_arg6) = W2 m ρ c (Proc.devRef .tc main_arg6) from by show StableHlo.after hostOps1 (W2 m ρ c) (Proc.devRef .tc main_arg6) = _; after_results)).trans (((W2_of_ne m ρ c main_arg6 (by decide))).trans ((show W1 m ρ c (Proc.devRef .tc main_arg6) = W0 m ρ c (Proc.devRef .tc main_arg6) from by show StableHlo.after hostOps0 (W0 m ρ c) (Proc.devRef .tc main_arg6) = _; after_results)))
theorem W5_main_arg8 : W5 m ρ c (Proc.devRef .tc main_arg8) = m ((c : Thread nD τ).loc main_arg8) :=
  ((show W5 m ρ c (Proc.devRef .tc main_arg8) = W4 m ρ c (Proc.devRef .tc main_arg8) from by show StableHlo.after hostOps2 (W4 m ρ c) (Proc.devRef .tc main_arg8) = _; after_results)).trans (((W4_of_ne m ρ c main_arg8 (by decide))).trans (((show W3 m ρ c (Proc.devRef .tc main_arg8) = W2 m ρ c (Proc.devRef .tc main_arg8) from by show StableHlo.after hostOps1 (W2 m ρ c) (Proc.devRef .tc main_arg8) = _; after_results)).trans (((W2_of_ne m ρ c main_arg8 (by decide))).trans ((show W1 m ρ c (Proc.devRef .tc main_arg8) = W0 m ρ c (Proc.devRef .tc main_arg8) from by show StableHlo.after hostOps0 (W0 m ρ c) (Proc.devRef .tc main_arg8) = _; after_results)))))
theorem W7_main_arg3 : W7 m ρ c (Proc.devRef .tc main_arg3) = m ((c : Thread nD τ).loc main_arg3) :=
  ((show W7 m ρ c (Proc.devRef .tc main_arg3) = W6 m ρ c (Proc.devRef .tc main_arg3) from by show StableHlo.after hostOps3 (W6 m ρ c) (Proc.devRef .tc main_arg3) = _; after_results)).trans (((W6_of_ne m ρ c main_arg3 (by decide))).trans (((show W5 m ρ c (Proc.devRef .tc main_arg3) = W4 m ρ c (Proc.devRef .tc main_arg3) from by show StableHlo.after hostOps2 (W4 m ρ c) (Proc.devRef .tc main_arg3) = _; after_results)).trans (((W4_of_ne m ρ c main_arg3 (by decide))).trans (((show W3 m ρ c (Proc.devRef .tc main_arg3) = W2 m ρ c (Proc.devRef .tc main_arg3) from by show StableHlo.after hostOps1 (W2 m ρ c) (Proc.devRef .tc main_arg3) = _; after_results)).trans (((W2_of_ne m ρ c main_arg3 (by decide))).trans ((show W1 m ρ c (Proc.devRef .tc main_arg3) = W0 m ρ c (Proc.devRef .tc main_arg3) from by show StableHlo.after hostOps0 (W0 m ρ c) (Proc.devRef .tc main_arg3) = _; after_results)))))))
theorem W9_main_arg10 : W9 m ρ c (Proc.devRef .tc main_arg10) = m ((c : Thread nD τ).loc main_arg10) :=
  ((show W9 m ρ c (Proc.devRef .tc main_arg10) = W8 m ρ c (Proc.devRef .tc main_arg10) from by show StableHlo.after hostOps4 (W8 m ρ c) (Proc.devRef .tc main_arg10) = _; after_results)).trans (((W8_of_ne m ρ c main_arg10 (by decide))).trans (((show W7 m ρ c (Proc.devRef .tc main_arg10) = W6 m ρ c (Proc.devRef .tc main_arg10) from by show StableHlo.after hostOps3 (W6 m ρ c) (Proc.devRef .tc main_arg10) = _; after_results)).trans (((W6_of_ne m ρ c main_arg10 (by decide))).trans (((show W5 m ρ c (Proc.devRef .tc main_arg10) = W4 m ρ c (Proc.devRef .tc main_arg10) from by show StableHlo.after hostOps2 (W4 m ρ c) (Proc.devRef .tc main_arg10) = _; after_results)).trans (((W4_of_ne m ρ c main_arg10 (by decide))).trans (((show W3 m ρ c (Proc.devRef .tc main_arg10) = W2 m ρ c (Proc.devRef .tc main_arg10) from by show StableHlo.after hostOps1 (W2 m ρ c) (Proc.devRef .tc main_arg10) = _; after_results)).trans (((W2_of_ne m ρ c main_arg10 (by decide))).trans ((show W1 m ρ c (Proc.devRef .tc main_arg10) = W0 m ρ c (Proc.devRef .tc main_arg10) from by show StableHlo.after hostOps0 (W0 m ρ c) (Proc.devRef .tc main_arg10) = _; after_results)))))))))

theorem W2_main_arg7 : W2 m ρ c (Proc.devRef .tc main_arg7) = m ((c : Thread nD τ).loc main_arg7) :=
  ((W2_of_ne m ρ c main_arg7 (by decide))).trans ((show W1 m ρ c (Proc.devRef .tc main_arg7) = W0 m ρ c (Proc.devRef .tc main_arg7) from by show StableHlo.after hostOps0 (W0 m ρ c) (Proc.devRef .tc main_arg7) = _; after_results))
theorem W4_main_arg9 : W4 m ρ c (Proc.devRef .tc main_arg9) = m ((c : Thread nD τ).loc main_arg9) :=
  ((W4_of_ne m ρ c main_arg9 (by decide))).trans (((show W3 m ρ c (Proc.devRef .tc main_arg9) = W2 m ρ c (Proc.devRef .tc main_arg9) from by show StableHlo.after hostOps1 (W2 m ρ c) (Proc.devRef .tc main_arg9) = _; after_results)).trans (((W2_of_ne m ρ c main_arg9 (by decide))).trans ((show W1 m ρ c (Proc.devRef .tc main_arg9) = W0 m ρ c (Proc.devRef .tc main_arg9) from by show StableHlo.after hostOps0 (W0 m ρ c) (Proc.devRef .tc main_arg9) = _; after_results))))
theorem W8_main_arg11 : W8 m ρ c (Proc.devRef .tc main_arg11) = m ((c : Thread nD τ).loc main_arg11) :=
  ((W8_of_ne m ρ c main_arg11 (by decide))).trans (((show W7 m ρ c (Proc.devRef .tc main_arg11) = W6 m ρ c (Proc.devRef .tc main_arg11) from by show StableHlo.after hostOps3 (W6 m ρ c) (Proc.devRef .tc main_arg11) = _; after_results)).trans (((W6_of_ne m ρ c main_arg11 (by decide))).trans (((show W5 m ρ c (Proc.devRef .tc main_arg11) = W4 m ρ c (Proc.devRef .tc main_arg11) from by show StableHlo.after hostOps2 (W4 m ρ c) (Proc.devRef .tc main_arg11) = _; after_results)).trans (((W4_of_ne m ρ c main_arg11 (by decide))).trans (((show W3 m ρ c (Proc.devRef .tc main_arg11) = W2 m ρ c (Proc.devRef .tc main_arg11) from by show StableHlo.after hostOps1 (W2 m ρ c) (Proc.devRef .tc main_arg11) = _; after_results)).trans (((W2_of_ne m ρ c main_arg11 (by decide))).trans ((show W1 m ρ c (Proc.devRef .tc main_arg11) = W0 m ρ c (Proc.devRef .tc main_arg11) from by show StableHlo.after hostOps0 (W0 m ρ c) (Proc.devRef .tc main_arg11) = _; after_results))))))))

/-! ## The first stretch: the three activations as [4096, 1024] matrices, the first bias as a row -/

theorem W1_main_v0 : W1 m ρ c (Proc.devRef .tc main_v0)
    = shapeCast S4096x1024 (m ((c : Thread nD τ).loc main_arg0)) shapeCasts_S2x2048x1024_S4096x1024 := by
  show StableHlo.after hostOps0 (W0 m ρ c) (Proc.devRef .tc main_v0) = _; after_results; try rfl
theorem W1_main_v1 : W1 m ρ c (Proc.devRef .tc main_v1)
    = shapeCast S4096x1024 (m ((c : Thread nD τ).loc main_arg1)) shapeCasts_S2x2048x1024_S4096x1024 := by
  show StableHlo.after hostOps0 (W0 m ρ c) (Proc.devRef .tc main_v1) = _; after_results; try rfl
theorem W1_main_v2 : W1 m ρ c (Proc.devRef .tc main_v2)
    = shapeCast S4096x1024 (m ((c : Thread nD τ).loc main_arg2)) shapeCasts_S2x2048x1024_S4096x1024 := by
  show StableHlo.after hostOps0 (W0 m ρ c) (Proc.devRef .tc main_v2) = _; after_results; try rfl
theorem W1_main_v3 : W1 m ρ c (Proc.devRef .tc main_v3)
    = shapeCast S1x1024 (m ((c : Thread nD τ).loc main_arg5)) shapeCasts_S1024_S1x1024 := by
  show StableHlo.after hostOps0 (W0 m ρ c) (Proc.devRef .tc main_v3) = _; after_results; try rfl

/-! ## What each linear region finds -/

theorem V3_main_v1 : V3 m ρ c main_v1 = shapeCast S4096x1024 (m ((c : Thread nD τ).loc main_arg1)) shapeCasts_S2x2048x1024_S4096x1024 :=
  (((show W3 m ρ c (Proc.devRef .tc main_v1) = W2 m ρ c (Proc.devRef .tc main_v1) from by show StableHlo.after hostOps1 (W2 m ρ c) (Proc.devRef .tc main_v1) = _; after_results)).trans ((W2_of_ne m ρ c main_v1 (by decide)))).trans (W1_main_v1 m ρ c)
theorem V3_main_v5 : V3 m ρ c main_v5 = shapeCast S1x1024 (m ((c : Thread nD τ).loc main_arg7)) shapeCasts_S1024_S1x1024 := by
  have h : W3 m ρ c (Proc.devRef .tc main_v5) = shapeCast S1x1024 (W2 m ρ c (Proc.devRef .tc main_arg7)) shapeCasts_S1024_S1x1024 := by
    show StableHlo.after hostOps1 (W2 m ρ c) (Proc.devRef .tc main_v5) = _; after_results; try rfl
  exact h.trans (by rw [W2_main_arg7])
theorem V5_main_v2 : V5 m ρ c main_v2 = shapeCast S4096x1024 (m ((c : Thread nD τ).loc main_arg2)) shapeCasts_S2x2048x1024_S4096x1024 :=
  (((show W5 m ρ c (Proc.devRef .tc main_v2) = W4 m ρ c (Proc.devRef .tc main_v2) from by show StableHlo.after hostOps2 (W4 m ρ c) (Proc.devRef .tc main_v2) = _; after_results)).trans (((W4_of_ne m ρ c main_v2 (by decide))).trans (((show W3 m ρ c (Proc.devRef .tc main_v2) = W2 m ρ c (Proc.devRef .tc main_v2) from by show StableHlo.after hostOps1 (W2 m ρ c) (Proc.devRef .tc main_v2) = _; after_results)).trans ((W2_of_ne m ρ c main_v2 (by decide)))))).trans (W1_main_v2 m ρ c)
theorem V5_main_v7 : V5 m ρ c main_v7 = shapeCast S1x1024 (m ((c : Thread nD τ).loc main_arg9)) shapeCasts_S1024_S1x1024 := by
  have h : W5 m ρ c (Proc.devRef .tc main_v7) = shapeCast S1x1024 (W4 m ρ c (Proc.devRef .tc main_arg9)) shapeCasts_S1024_S1x1024 := by
    show StableHlo.after hostOps2 (W4 m ρ c) (Proc.devRef .tc main_v7) = _; after_results; try rfl
  exact h.trans (by rw [W4_main_arg9])

/-! ## What the attention region finds: the three projections reshaped back to [2, 2048, 1024] -/

theorem W6_main_v4 : W6 m ρ c (Proc.devRef .tc main_v4) = (dat0 (V1 m ρ) c).arrAt 3 cfg0.N :=
  (((W6_of_ne m ρ c main_v4 (by decide))).trans (((show W5 m ρ c (Proc.devRef .tc main_v4) = W4 m ρ c (Proc.devRef .tc main_v4) from by show StableHlo.after hostOps2 (W4 m ρ c) (Proc.devRef .tc main_v4) = _; after_results)).trans (((W4_of_ne m ρ c main_v4 (by decide))).trans ((show W3 m ρ c (Proc.devRef .tc main_v4) = W2 m ρ c (Proc.devRef .tc main_v4) from by show StableHlo.after hostOps1 (W2 m ρ c) (Proc.devRef .tc main_v4) = _; after_results))))).trans (W2_arr m ρ c 3)
theorem W6_main_v6 : W6 m ρ c (Proc.devRef .tc main_v6) = (dat1 (V3 m ρ) c).arrAt 3 cfg1.N :=
  (((W6_of_ne m ρ c main_v6 (by decide))).trans ((show W5 m ρ c (Proc.devRef .tc main_v6) = W4 m ρ c (Proc.devRef .tc main_v6) from by show StableHlo.after hostOps2 (W4 m ρ c) (Proc.devRef .tc main_v6) = _; after_results))).trans (W4_arr m ρ c 3)
theorem W6_main_v8 : W6 m ρ c (Proc.devRef .tc main_v8) = (dat2 (V5 m ρ) c).arrAt 3 cfg2.N :=
  W6_arr m ρ c 3

theorem V7_main_v9 : V7 m ρ c main_v9
    = shapeCast S2x2048x1024 (W6 m ρ c (Proc.devRef .tc main_v4)) shapeCasts_S4096x1024_S2x2048x1024 := by
  show StableHlo.after hostOps3 (W6 m ρ c) (Proc.devRef .tc main_v9) = _; after_results; try rfl
theorem V7_main_v10 : V7 m ρ c main_v10
    = shapeCast S2x2048x1024 (W6 m ρ c (Proc.devRef .tc main_v6)) shapeCasts_S4096x1024_S2x2048x1024 := by
  show StableHlo.after hostOps3 (W6 m ρ c) (Proc.devRef .tc main_v10) = _; after_results; try rfl
theorem V7_main_v11 : V7 m ρ c main_v11
    = shapeCast S2x2048x1024 (W6 m ρ c (Proc.devRef .tc main_v8)) shapeCasts_S4096x1024_S2x2048x1024 := by
  show StableHlo.after hostOps3 (W6 m ρ c) (Proc.devRef .tc main_v11) = _; after_results; try rfl

/-! ## What the output projection finds, and the two results -/

theorem W8_main_v12_0 : W8 m ρ c (Proc.devRef .tc main_v12_0) = (dat3 (V7 m ρ) c).arrAt 4 cfg3.N := W8_arr m ρ c 4
theorem W8_main_v12_1 : W8 m ρ c (Proc.devRef .tc main_v12_1) = (dat3 (V7 m ρ) c).arrAt 5 cfg3.N := W8_arr m ρ c 5

theorem V9_main_v13 : V9 m ρ c main_v13
    = shapeCast S4096x1024 (W8 m ρ c (Proc.devRef .tc main_v12_0)) shapeCasts_S2x2048x1024_S4096x1024 := by
  show StableHlo.after hostOps4 (W8 m ρ c) (Proc.devRef .tc main_v13) = _; after_results; try rfl
theorem V9_main_v14 : V9 m ρ c main_v14 = shapeCast S1x1024 (m ((c : Thread nD τ).loc main_arg11)) shapeCasts_S1024_S1x1024 := by
  have h : W9 m ρ c (Proc.devRef .tc main_v14) = shapeCast S1x1024 (W8 m ρ c (Proc.devRef .tc main_arg11)) shapeCasts_S1024_S1x1024 := by
    show StableHlo.after hostOps4 (W8 m ρ c) (Proc.devRef .tc main_v14) = _; after_results; try rfl
  exact h.trans (by rw [W8_main_arg11])

theorem W11_main_v16 : W11 m ρ c (Proc.devRef .tc main_v16)
    = shapeCast S2x2048x1024 ((dat4 (V9 m ρ) c).arrAt 3 cfg4.N) shapeCasts_S4096x1024_S2x2048x1024 := by
  have h : W11 m ρ c (Proc.devRef .tc main_v16)
      = shapeCast S2x2048x1024 (W10 m ρ c (Proc.devRef .tc main_v15)) shapeCasts_S4096x1024_S2x2048x1024 := by
    show StableHlo.after hostOps5 (W10 m ρ c) (Proc.devRef .tc main_v16) = _; after_results; try rfl
  exact h.trans (by rw [show W10 m ρ c (Proc.devRef .tc main_v15) = (dat4 (V9 m ρ) c).arrAt 3 cfg4.N from W10_arr m ρ c 3])
theorem W11_main_v12_1 : W11 m ρ c (Proc.devRef .tc main_v12_1) = (dat3 (V7 m ρ) c).arrAt 5 cfg3.N :=
  (((show W11 m ρ c (Proc.devRef .tc main_v12_1) = W10 m ρ c (Proc.devRef .tc main_v12_1) from by show StableHlo.after hostOps5 (W10 m ρ c) (Proc.devRef .tc main_v12_1) = _; after_results)).trans (((W10_of_ne m ρ c main_v12_1 (by decide))).trans ((show W9 m ρ c (Proc.devRef .tc main_v12_1) = W8 m ρ c (Proc.devRef .tc main_v12_1) from by show StableHlo.after hostOps4 (W8 m ρ c) (Proc.devRef .tc main_v12_1) = _; after_results)))).trans (W8_arr m ρ c 5)

end Cert.KernelIdeal.Chain

end
-- ==== Proof.KernelRun.lean ====
/-
  The idealized kernel's whole run, with every buffer named: every weakly fair execution of @main terminates without a
  fault, and each TensorCore buffer that outlives the regions ends at the contents the fold through @main's eleven
  segments (six stretches of host operations around five pipelined regions) gives it. The frame claim keeps only the
  twelve argument arrays of this post; the value claim needs the two result arrays as well, so the post is kept whole.
-/
import proofs.«127580_j11682311045245_2_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of @main ends with each unscoped TensorCore buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The same read at one buffer of @main. -/
theorem run_buf (b : Ref sig .tc) (hb : ¬ (Proc.devRef .tc b : DevRef τ sig).isScoped) :
    θ_run defs (onTc (τ := τ) (main (F := F))) ⟨m, fun _ => 0, ρ⟩
      (fun r => ∀ c : Dev nD, r.2.mem ((c.tc : Thread nD τ).loc b) = W11 m ρ c (Proc.devRef .tc b)) :=
  (θ_run defs _ _).mono (fun _ h c => h c _ (mem_uc b hb)) (run_all m ρ)

end Cert.KernelIdeal.RunAll

end
-- ==== Proof.LinSpec.lean ====
/-
  A linear layer on row-major matrices, over extended reals: the [rows, 1024] activations against a [1024, 1024]
  weight stored [out, in], plus a [1, 1024] bias row:  Y[r, e] = (∑ k, X[r, k] · W[e, k]) + bias[0, e].
-/
import Idealize.ShloMosaic.PureOps.Ideal
import Idealize.ShloMosaic.Lib.ValueIdx

noncomputable section

namespace Cert.Lin

open Idealize.ShloMosaic Idealize.ShloMosaic.ValueIdx

abbrev SRows : Shape := ⟨2, ![4096, 1024]⟩
abbrev SSq : Shape := ⟨2, ![1024, 1024]⟩
abbrev SRow : Shape := ⟨2, ![1, 1024]⟩

/-- Entry (r, e): row r of the activations against row e of the weight, plus the bias at e. -/
def linAt {R : Nat} (X : FVec Ideal ⟨2, ![R, 1024]⟩ .f32) (W : FVec Ideal SSq .f32) (bias : FVec Ideal SRow .f32)
    (r : Fin R) (e : Fin 1024) : EReal :=
  (∑ k : Fin 1024, X (ix2 r k) * W (ix2 e k)) + bias (ix2 (0 : Fin 1) e)

/-- The layer's output on all 4096 rows. -/
def lin2 (X : FVec Ideal SRows .f32) (W : FVec Ideal SSq .f32) (bias : FVec Ideal SRow .f32) : FVec Ideal SRows .f32 :=
  fun i => linAt X W bias (i 0) (i 1)

theorem lin2_apply (X : FVec Ideal SRows .f32) (W : FVec Ideal SSq .f32) (bias : FVec Ideal SRow .f32)
    (r : Fin 4096) (e : Fin 1024) : lin2 X W bias (ix2 r e) = linAt X W bias r e := rfl

/-- The output at an index whose coordinates are known by value. -/
theorem lin2_apply_of (X : FVec Ideal SRows .f32) (W : FVec Ideal SSq .f32) (bias : FVec Ideal SRow .f32)
    (i : SRows.Idx) (r : Fin 4096) (e : Fin 1024) (h0 : (i 0).val = r.val) (h1 : (i 1).val = e.val) :
    lin2 X W bias i = linAt X W bias r e := by
  have hi : i = ix2 r e := funext fun a => Fin.ext (by
    match a with
    | ⟨0, _⟩ => exact h0
    | ⟨1, _⟩ => exact h1)
  rw [hi]; rfl

end Cert.Lin

end
-- ==== Proof.LibRowDot.lean ====
/-
  A product of one matrix with the transpose of another, read at one entry.

  The matrix unit's contraction in which BOTH operands contract their last axis (left contracting axis 1, right
  contracting axis 1, no batch axis: `x @ w.T` with `w` kept in its (columns-of-the-result, contraction) layout),
  accumulated into the zero splat, is at the ideal values the sum over the contraction coordinate k of
  l (i, k) · r (j, k): entry (i, j) is the dot product of row i of the left operand with row j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.RowDot

open Idealize.ShloMosaic Idealize.ShloMosaic.ValueIdx

/-- Entry (i, j) of an M×K by N×K `tpu.matmul` contracting both last axes into the zero accumulator, at the ideal
    values: the dot product of the left operand's row i with the right operand's row j. -/
theorem matmul_zero_apply {M K N : Nat} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![M, K]⟩ φ₁) (r : FVec Ideal ⟨2, ![N, K]⟩ φ₂)
    (i : Fin M) (j : Fin N) :
    matmul D prec l r (constant ⟨2, ![M, N]⟩ .f32 0x00000000#32) (ix2 i j)
      = ∑ k : Fin K, l (ix2 i k) * r (ix2 j k) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 j k :=
    funext fun a => Fin.ext (by
      match a with
      | ⟨0, _⟩ =>
        unfold DotDims.rhsIdx
        rw [dif_neg (by exact List.not_mem_nil), dif_pos (by exact List.mem_singleton.mpr rfl)]
        rfl
      | ⟨1, _⟩ => exact (DotDims.rhsIdx_val_of_single _ rfl _ _).trans hk)
  rw [el, er]

end Idealize.ShloMosaic.RowDot

end
-- ==== Proof.LinRegion0.lean ====
/-
  Region 0 of the kernel (a linear layer, four row blocks of 1024): the array it leaves is the layer's output on all
  4096 rows. Each grid point t loads rows [1024 t, 1024 t + 1024) of the activations, the whole weight and the bias row,
  and writes back the same rows of the output; the body's value at (p, e) of a block is the dot product of activation
  row p with weight row e plus the bias at e, and the four blocks tile the array.
-/
import proofs.«127580_j11682311045245_2_alg».proof.Proof.Gen.KernelIdeal.Frame
import proofs.«127580_j11682311045245_2_alg».proof.Proof.LinSpec
import proofs.«127580_j11682311045245_2_alg».proof.Proof.LibRowDot
import Idealize.ShloMosaic.Lib.ValueLayout
import Idealize.ShloMosaic.Lib.Pipeline.Value
import Idealize.ShloMosaic.Lib.ValueIdx

set_option maxRecDepth 16384

noncomputable section

namespace Cert.KernelIdeal.Lin0

open Cert.KernelIdeal Cert.KernelIdeal.Gen Cert.Lin
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The body's arithmetic on one block, read at (p, e): the block's row p against weight row e, plus the bias. -/
theorem body_at (x0 x1 : Vec Ideal S1024x1024 .f32) (x2 : Vec Ideal S1x1024 .f32) (p e : Fin 1024) :
    k0_pay1 (F := Ideal) x0 x1 x2 (ix2 p e) = linAt x0 x1 x2 p e := by
  unfold k0_pay1 linAt
  show _ + _ = _
  refine congrArg₂ (· + ·) ?_ ?_
  · refine (RowDot.matmul_zero_apply dot_S1024x1024_S1024x1024_S1024x1024_1_1_0_0_n_n rfl rfl rfl rfl rfl rfl none _ _ p e).trans ?_
    refine Finset.sum_congr rfl fun k _ => ?_
    show shapeCast S1024x1024 x0 shapeCasts_S1024x1024_S1024x1024 (ix2 p k) * x1 (ix2 e k) = _
    rw [shapeCast_self]
  · refine (broadcastTo_1b_ab_apply _ broadcasts_S1x1024_S1024x1024 p e).trans ?_
    rw [shapeCast_self]

/-- The printed index maps over the four grid points: the activations' and the output's row blocks move together,
    everything else stays at block 0. -/
theorem maps : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 3 :=
  (by decide +kernel : ∀ t : Fin grid0.N, _)

/-- Every row block is some point's. -/
theorem maps_onto : ∀ q : Fin 4, ∃ t : Fin cfg0.N, win0_3.index t = ![q.val, 0] :=
  (by decide +kernel : ∀ q : Fin 4, ∃ t : Fin grid0.N, win0_3.index t = ![q.val, 0])

/-- What point t writes back is block t of the layer's output on the arrays the region finds. -/
theorem written_eq (c : Dev nD) (t : Fin cfg0.N) :
    (dat0 V c).flushed 3 t
      = ((cfg0.win 3).blk t).view.read (Elt Ideal) (lin2 (V c main_v0) (V c main_arg4) (V c main_v3)) := by
  show (cfg0.win 3).cut (grid0.coords t) ((dat0 V c).after 3 t) = _
  rw [after0_3]
  unfold out0_3
  rw [View.canon_unit_zero origin2]
  simp only [View.ld_unit_zero (S := S1024x1024) origin2, View.ld_unit_zero (S := S1x1024) origin2]
  obtain ⟨e0, e1, e2, e3, e4, e5, e6, e7⟩ := maps t
  refine funext fun (j : S1024x1024.Idx) => ?_
  obtain ⟨p, e, rfl⟩ : ∃ (p e : Fin 1024), j = ix2 p e := ⟨j 0, j 1, eq_ix2 j⟩
  refine (body_at (iblk0 V c 0 t) (iblk0 V c 1 t) (iblk0 V c 2 t) p e).trans ?_
  refine Eq.trans ?_ (lin2_apply_of (V c main_v0) (V c main_arg4) (V c main_v3) _
    ⟨win0_3.index t (0 : Fin 2) * 1024 + p.val, by have := p.isLt; omega⟩ e
    (by show win0_3.index t (0 : Fin 2) * 1024 + 1 * p.val = win0_3.index t (0 : Fin 2) * 1024 + p.val; omega)
    (by show win0_3.index t (1 : Fin 2) * 1024 + 1 * e.val = e.val; omega)).symm
  unfold linAt
  have hX : ∀ k : Fin 1024, iblk0 V c 0 t (ix2 p k)
      = V c main_v0 (ix2 (⟨win0_3.index t (0 : Fin 2) * 1024 + p.val, by have := p.isLt; omega⟩ : Fin 4096) k) := fun k => by
    show V c main_v0 (((cfg0.win 0).blk t).view.emb (ix2 p k)) = _
    refine congrArg (V c main_v0) (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 1024 + 1 * k.val = k.val; omega
  have hW : ∀ k : Fin 1024, iblk0 V c 1 t (ix2 e k) = V c main_arg4 (ix2 e k) := fun k => by
    show V c main_arg4 (((cfg0.win 1).blk t).view.emb (ix2 e k)) = _
    refine congrArg (V c main_arg4) (funext fun a => Fin.ext ?_)
    match a with
    | ⟨0, _⟩ => show win0_1.index t (0 : Fin 2) * 1024 + 1 * e.val = e.val; omega
    | ⟨1, _⟩ => show win0_1.index t (1 : Fin 2) * 1024 + 1 * k.val = k.val; omega
  have hB : iblk0 V c 2 t (ix2 (0 : Fin 1) e) = V c main_v3 (ix2 (0 : Fin 1) e) := by
    show V c main_v3 (((cfg0.win 2).blk t).view.emb (ix2 (0 : Fin 1) e)) = _
    refine congrArg (V c main_v3) (funext fun a => Fin.ext ?_)
    match a with
    | ⟨0, _⟩ => show win0_2.index t (0 : Fin 2) * 1 + 1 * 0 = 0; omega
    | ⟨1, _⟩ => show win0_2.index t (1 : Fin 2) * 1024 + 1 * e.val = e.val; omega
  exact congrArg₂ (· + ·) (Finset.sum_congr rfl fun k _ => by rw [hX k, hW k]) hB

/-- An index of the output array is in point t's block iff each coordinate is in the block's range on its axis. -/
theorem mem_block (t : Fin cfg0.N) (i : S4096x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- The four row blocks cover the output array. -/
theorem covered (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := maps_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the region: the layer on the arrays the region finds. -/
theorem region_value (c : Dev nD) :
    (dat0 V c).arrAt 3 cfg0.N = lin2 (V c main_v0) (V c main_arg4) (V c main_v3) :=
  (dat0 V c).arrAt_eq_of_cover 3 (lin2 (V c main_v0) (V c main_arg4) (V c main_v3)) (fun t _ => written_eq V c t) covered

end Cert.KernelIdeal.Lin0

end
-- ==== Proof.LinRegion1.lean ====
/-
  Region 1 of the kernel (a linear layer, four row blocks of 1024): the array it leaves is the layer's output on all
  4096 rows. Each grid point t loads rows [1024 t, 1024 t + 1024) of the activations, the whole weight and the bias row,
  and writes back the same rows of the output; the body's value at (p, e) of a block is the dot product of activation
  row p with weight row e plus the bias at e, and the four blocks tile the array.
-/
import proofs.«127580_j11682311045245_2_alg».proof.Proof.Gen.KernelIdeal.Frame
import proofs.«127580_j11682311045245_2_alg».proof.Proof.LinSpec
import proofs.«127580_j11682311045245_2_alg».proof.Proof.LibRowDot
import Idealize.ShloMosaic.Lib.ValueLayout
import Idealize.ShloMosaic.Lib.Pipeline.Value
import Idealize.ShloMosaic.Lib.ValueIdx

set_option maxRecDepth 16384

noncomputable section

namespace Cert.KernelIdeal.Lin1

open Cert.KernelIdeal Cert.KernelIdeal.Gen Cert.Lin
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The body's arithmetic on one block, read at (p, e): the block's row p against weight row e, plus the bias. -/
theorem body_at (x0 x1 : Vec Ideal S1024x1024 .f32) (x2 : Vec Ideal S1x1024 .f32) (p e : Fin 1024) :
    k1_pay1 (F := Ideal) x0 x1 x2 (ix2 p e) = linAt x0 x1 x2 p e := by
  unfold k1_pay1 linAt
  show _ + _ = _
  refine congrArg₂ (· + ·) ?_ ?_
  · refine (RowDot.matmul_zero_apply dot_S1024x1024_S1024x1024_S1024x1024_1_1_0_0_n_n rfl rfl rfl rfl rfl rfl none _ _ p e).trans ?_
    refine Finset.sum_congr rfl fun k _ => ?_
    show shapeCast S1024x1024 x0 shapeCasts_S1024x1024_S1024x1024 (ix2 p k) * x1 (ix2 e k) = _
    rw [shapeCast_self]
  · refine (broadcastTo_1b_ab_apply _ broadcasts_S1x1024_S1024x1024 p e).trans ?_
    rw [shapeCast_self]

/-- The printed index maps over the four grid points: the activations' and the output's row blocks move together,
    everything else stays at block 0. -/
theorem maps : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 3 :=
  (by decide +kernel : ∀ t : Fin grid1.N, _)

/-- Every row block is some point's. -/
theorem maps_onto : ∀ q : Fin 4, ∃ t : Fin cfg1.N, win1_3.index t = ![q.val, 0] :=
  (by decide +kernel : ∀ q : Fin 4, ∃ t : Fin grid1.N, win1_3.index t = ![q.val, 0])

/-- What point t writes back is block t of the layer's output on the arrays the region finds. -/
theorem written_eq (c : Dev nD) (t : Fin cfg1.N) :
    (dat1 V c).flushed 3 t
      = ((cfg1.win 3).blk t).view.read (Elt Ideal) (lin2 (V c main_v1) (V c main_arg6) (V c main_v5)) := by
  show (cfg1.win 3).cut (grid1.coords t) ((dat1 V c).after 3 t) = _
  rw [after1_3]
  unfold out1_3
  rw [View.canon_unit_zero origin2]
  simp only [View.ld_unit_zero (S := S1024x1024) origin2, View.ld_unit_zero (S := S1x1024) origin2]
  obtain ⟨e0, e1, e2, e3, e4, e5, e6, e7⟩ := maps t
  refine funext fun (j : S1024x1024.Idx) => ?_
  obtain ⟨p, e, rfl⟩ : ∃ (p e : Fin 1024), j = ix2 p e := ⟨j 0, j 1, eq_ix2 j⟩
  refine (body_at (iblk1 V c 0 t) (iblk1 V c 1 t) (iblk1 V c 2 t) p e).trans ?_
  refine Eq.trans ?_ (lin2_apply_of (V c main_v1) (V c main_arg6) (V c main_v5) _
    ⟨win1_3.index t (0 : Fin 2) * 1024 + p.val, by have := p.isLt; omega⟩ e
    (by show win1_3.index t (0 : Fin 2) * 1024 + 1 * p.val = win1_3.index t (0 : Fin 2) * 1024 + p.val; omega)
    (by show win1_3.index t (1 : Fin 2) * 1024 + 1 * e.val = e.val; omega)).symm
  unfold linAt
  have hX : ∀ k : Fin 1024, iblk1 V c 0 t (ix2 p k)
      = V c main_v1 (ix2 (⟨win1_3.index t (0 : Fin 2) * 1024 + p.val, by have := p.isLt; omega⟩ : Fin 4096) k) := fun k => by
    show V c main_v1 (((cfg1.win 0).blk t).view.emb (ix2 p k)) = _
    refine congrArg (V c main_v1) (funext fun a => Fin.ext ?_)
    match a with
    | ⟨0, _⟩ => show win1_0.index t (0 : Fin 2) * 1024 + 1 * p.val = win1_3.index t (0 : Fin 2) * 1024 + p.val; omega
    | ⟨1, _⟩ => show win1_0.index t (1 : Fin 2) * 1024 + 1 * k.val = k.val; omega
  have hW : ∀ k : Fin 1024, iblk1 V c 1 t (ix2 e k) = V c main_arg6 (ix2 e k) := fun k => by
    show V c main_arg6 (((cfg1.win 1).blk t).view.emb (ix2 e k)) = _
    refine congrArg (V c main_arg6) (funext fun a => Fin.ext ?_)
    match a with
    | ⟨0, _⟩ => show win1_1.index t (0 : Fin 2) * 1024 + 1 * e.val = e.val; omega
    | ⟨1, _⟩ => show win1_1.index t (1 : Fin 2) * 1024 + 1 * k.val = k.val; omega
  have hB : iblk1 V c 2 t (ix2 (0 : Fin 1) e) = V c main_v5 (ix2 (0 : Fin 1) e) := by
    show V c main_v5 (((cfg1.win 2).blk t).view.emb (ix2 (0 : Fin 1) e)) = _
    refine congrArg (V c main_v5) (funext fun a => Fin.ext ?_)
    match a with
    | ⟨0, _⟩ => show win1_2.index t (0 : Fin 2) * 1 + 1 * 0 = 0; omega
    | ⟨1, _⟩ => show win1_2.index t (1 : Fin 2) * 1024 + 1 * e.val = e.val; omega
  exact congrArg₂ (· + ·) (Finset.sum_congr rfl fun k _ => by rw [hX k, hW k]) hB

/-- An index of the output array is in point t's block iff each coordinate is in the block's range on its axis. -/
theorem mem_block (t : Fin cfg1.N) (i : S4096x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v6).slice (win1_3.rect t)).set ↔ _
  rw [View.set_slice_whole, Rect.mem_set_unit]
  exact Iff.rfl

/-- The four row blocks cover the output array. -/
theorem covered (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ := maps_onto ⟨(i 0).val / 1024, by omega⟩
  have q0 : win1_3.index t (0 : Fin 2) = (i 0).val / 1024 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The output array after the region: the layer on the arrays the region finds. -/
theorem region_value (c : Dev nD) :
    (dat1 V c).arrAt 3 cfg1.N = lin2 (V c main_v1) (V c main_arg6) (V c main_v5) :=
  (dat1 V c).arrAt_eq_of_cover 3 (lin2 (V c main_v1) (V c main_arg6) (V c main_v5)) (fun t _ => written_eq V c t) covered

end Cert.KernelIdeal.Lin1

end
-- ==== Proof.LinRegion2.lean ====
/-
  Region 2 of the kernel (a linear layer, four row blocks of 1024): the array it leaves is the layer's output on all
  4096 rows. Each grid point t loads rows [1024 t, 1024 t + 1024) of the activations, the whole weight and the bias row,
  and writes back the same rows of the output; the body's value at (p, e) of a block is the dot product of activation
  row p with weight row e plus the bias at e, and the four blocks tile the array.
-/
import proofs.«127580_j11682311045245_2_alg».proof.Proof.Gen.KernelIdeal.Frame
import proofs.«127580_j11682311045245_2_alg».proof.Proof.LinSpec
import proofs.«127580_j11682311045245_2_alg».proof.Proof.LibRowDot
import Idealize.ShloMosaic.Lib.ValueLayout
import Idealize.ShloMosaic.Lib.Pipeline.Value
import Idealize.ShloMosaic.Lib.ValueIdx

set_option maxRecDepth 16384

noncomputable section

namespace Cert.KernelIdeal.Lin2

open Cert.KernelIdeal Cert.KernelIdeal.Gen Cert.Lin
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The body's arithmetic on one block, read at (p, e): the block's row p against weight row e, plus the bias. -/
theorem body_at (x0 x1 : Vec Ideal S1024x1024 .f32) (x2 : Vec Ideal S1x1024 .f32) (p e : Fin 1024) :
    k2_pay1 (F := Ideal) x0 x1 x2 (ix2 p e) = linAt x0 x1 x2 p e := by
  unfold k2_pay1 linAt
  show _ + _ = _
  refine congrArg₂ (· + ·) ?_ ?_
  · refine (RowDot.matmul_zero_apply dot_S1024x1024_S1024x1024_S1024x1024_1_1_0_0_n_n rfl rfl rfl rfl rfl rfl none _ _ p e).trans ?_
    refine Finset.sum_congr rfl fun k _ => ?_
    show shapeCast S1024x1024 x0 shapeCasts_S1024x1024_S1024x1024 (ix2 p k) * x1 (ix2 e k) = _
    rw [shapeCast_self]
  · refine (broadcastTo_1b_ab_apply _ broadcasts_S1x1024_S1024x1024 p e).trans ?_
    rw [shapeCast_self]

/-- The printed index maps over the four grid points: the activations' and the output's row blocks move together,
    everything else stays at block 0. -/
theorem maps : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 3 :=
  (by decide +kernel : ∀ t : Fin grid2.N, _)

/-- Every row block is some point's. -/
theorem maps_onto : ∀ q : Fin 4, ∃ t : Fin cfg2.N, win2_3.index t = ![q.val, 0] :=
  (by decide +kernel : ∀ q : Fin 4, ∃ t : Fin grid2.N, win2_3.index t = ![q.val, 0])

/-- What point t writes back is block t of the layer's output on the arrays the region finds. -/
theorem written_eq (c : Dev nD) (t : Fin cfg2.N) :
    (dat2 V c).flushed 3 t
      = ((cfg2.win 3).blk t).view.read (Elt Ideal) (lin2 (V c main_v2) (V c main_arg8) (V c main_v7)) := by
  show (cfg2.win 3).cut (grid2.coords t) ((dat2 V c).after 3 t) = _
  rw [after2_3]
  unfold out2_3
  rw [View.canon_unit_zero origin2]
  simp only [View.ld_unit_zero (S := S1024x1024) origin2, View.ld_unit_zero (S := S1x1024) origin2]
  obtain ⟨e0, e1, e2, e3, e4, e5, e6, e7⟩ := maps t
  refine funext fun (j : S1024x1024.Idx) => ?_
  obtain ⟨p, e, rfl⟩ : ∃ (p e : Fin 1024), j = ix2 p e := ⟨j 0, j 1, eq_ix2 j⟩
  refine (body_at (iblk2 V c 0 t) (iblk2 V c 1 t) (iblk2 V c 2 t) p e).trans ?_
  refine Eq.trans ?_ (lin2_apply_of (V c main_v2) (V c main_arg8) (V c main_v7) _
    ⟨win2_3.index t (0 : Fin 2) * 1024 + p.val, by have := p.isLt; omega⟩ e
    (by show win2_3.index t (0 : Fin 2) * 1024 + 1 * p.val = win2_3.index t (0 : Fin 2) * 1024 + p.val; omega)
    (by show win2_3.index t (1 : Fin 2) * 1024 + 1 * e.val = e.val; omega)).symm
  unfold linAt
  have hX : ∀ k : Fin 1024, iblk2 V c 0 t (ix2 p k)
      = V c main_v2 (ix2 (⟨win2_3.index t (0 : Fin 2) * 1024 + p.val, by have := p.isLt; omega⟩ : Fin 4096) k) := fun k => by
    show V c main_v2 (((cfg2.win 0).blk t).view.emb (ix2 p k)) = _
    refine congrArg (V c main_v2) (funext fun a => Fin.ext ?_)
    match a with
    | ⟨0, _⟩ => show win2_0.index t (0 : Fin 2) * 1024 + 1 * p.val = win2_3.index t (0 : Fin 2) * 1024 + p.val; omega
    | ⟨1, _⟩ => show win2_0.index t (1 : Fin 2) * 1024 + 1 * k.val = k.val; omega
  have hW : ∀ k : Fin 1024, iblk2 V c 1 t (ix2 e k) = V c main_arg8 (ix2 e k) := fun k => by
    show V c main_arg8 (((cfg2.win 1).blk t).view.emb (ix2 e k)) = _
    refine congrArg (V c main_arg8) (funext fun a => Fin.ext ?_)
    match a with
    | ⟨0, _⟩ => show win2_1.index t (0 : Fin 2) * 1024 + 1 * e.val = e.val; omega
    | ⟨1, _⟩ => show win2_1.index t (1 : Fin 2) * 1024 + 1 * k.val = k.val; omega
  have hB : iblk2 V c 2 t (ix2 (0 : Fin 1) e) = V c main_v7 (ix2 (0 : Fin 1) e) := by
    show V c main_v7 (((cfg2.win 2).blk t).view.emb (ix2 (0 : Fin 1) e)) = _
    refine congrArg (V c main_v7) (funext fun a => Fin.ext ?_)
    match a with
    | ⟨0, _⟩ => show win2_2.index t (0 : Fin 2) * 1 + 1 * 0 = 0; omega
    | ⟨1, _⟩ => show win2_2.index t (1 : Fin 2) * 1024 + 1 * e.val = e.val; omega
  exact congrArg₂ (· + ·) (Finset.sum_congr rfl fun k _ => by rw [hX k, hW k]) hB

/-- An index of the output array is in point t's block iff each coordinate is in the block's range on its axis. -/
theorem mem_block (t : Fin cfg2.N) (i : S4096x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v8).slice (win2_3.rect t)).set ↔ _
  rw [View.set_slice_whole, Rect.mem_set_unit]
  exact Iff.rfl

/-- The four row blocks cover the output array. -/
theorem covered (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := maps_onto ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The output array after the region: the layer on the arrays the region finds. -/
theorem region_value (c : Dev nD) :
    (dat2 V c).arrAt 3 cfg2.N = lin2 (V c main_v2) (V c main_arg8) (V c main_v7) :=
  (dat2 V c).arrAt_eq_of_cover 3 (lin2 (V c main_v2) (V c main_arg8) (V c main_v7)) (fun t _ => written_eq V c t) covered

end Cert.KernelIdeal.Lin2

end
-- ==== Proof.LinRegion4.lean ====
/-
  Region 4 of the kernel (a linear layer, four row blocks of 1024): the array it leaves is the layer's output on all
  4096 rows. Each grid point t loads rows [1024 t, 1024 t + 1024) of the activations, the whole weight and the bias row,
  and writes back the same rows of the output; the body's value at (p, e) of a block is the dot product of activation
  row p with weight row e plus the bias at e, and the four blocks tile the array.
-/
import proofs.«127580_j11682311045245_2_alg».proof.Proof.Gen.KernelIdeal.Frame
import proofs.«127580_j11682311045245_2_alg».proof.Proof.LinSpec
import proofs.«127580_j11682311045245_2_alg».proof.Proof.LibRowDot
import Idealize.ShloMosaic.Lib.ValueLayout
import Idealize.ShloMosaic.Lib.Pipeline.Value
import Idealize.ShloMosaic.Lib.ValueIdx

set_option maxRecDepth 16384

noncomputable section

namespace Cert.KernelIdeal.Lin4

open Cert.KernelIdeal Cert.KernelIdeal.Gen Cert.Lin
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl

/-- The body's arithmetic on one block, read at (p, e): the block's row p against weight row e, plus the bias. -/
theorem body_at (x0 x1 : Vec Ideal S1024x1024 .f32) (x2 : Vec Ideal S1x1024 .f32) (p e : Fin 1024) :
    k4_pay1 (F := Ideal) x0 x1 x2 (ix2 p e) = linAt x0 x1 x2 p e := by
  unfold k4_pay1 linAt
  show _ + _ = _
  refine congrArg₂ (· + ·) ?_ ?_
  · refine (RowDot.matmul_zero_apply dot_S1024x1024_S1024x1024_S1024x1024_1_1_0_0_n_n rfl rfl rfl rfl rfl rfl none _ _ p e).trans ?_
    refine Finset.sum_congr rfl fun k _ => ?_
    show shapeCast S1024x1024 x0 shapeCasts_S1024x1024_S1024x1024 (ix2 p k) * x1 (ix2 e k) = _
    rw [shapeCast_self]
  · refine (broadcastTo_1b_ab_apply _ broadcasts_S1x1024_S1024x1024 p e).trans ?_
    rw [shapeCast_self]

/-- The printed index maps over the four grid points: the activations' and the output's row blocks move together,
    everything else stays at block 0. -/
theorem maps : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 3 :=
  (by decide +kernel : ∀ t : Fin grid4.N, _)

/-- Every row block is some point's. -/
theorem maps_onto : ∀ q : Fin 4, ∃ t : Fin cfg4.N, win4_3.index t = ![q.val, 0] :=
  (by decide +kernel : ∀ q : Fin 4, ∃ t : Fin grid4.N, win4_3.index t = ![q.val, 0])

/-- What point t writes back is block t of the layer's output on the arrays the region finds. -/
theorem written_eq (c : Dev nD) (t : Fin cfg4.N) :
    (dat4 V c).flushed 3 t
      = ((cfg4.win 3).blk t).view.read (Elt Ideal) (lin2 (V c main_v13) (V c main_arg10) (V c main_v14)) := by
  show (cfg4.win 3).cut (grid4.coords t) ((dat4 V c).after 3 t) = _
  rw [after4_3]
  unfold out4_3
  rw [View.canon_unit_zero origin2]
  simp only [View.ld_unit_zero (S := S1024x1024) origin2, View.ld_unit_zero (S := S1x1024) origin2]
  obtain ⟨e0, e1, e2, e3, e4, e5, e6, e7⟩ := maps t
  refine funext fun (j : S1024x1024.Idx) => ?_
  obtain ⟨p, e, rfl⟩ : ∃ (p e : Fin 1024), j = ix2 p e := ⟨j 0, j 1, eq_ix2 j⟩
  refine (body_at (iblk4 V c 0 t) (iblk4 V c 1 t) (iblk4 V c 2 t) p e).trans ?_
  refine Eq.trans ?_ (lin2_apply_of (V c main_v13) (V c main_arg10) (V c main_v14) _
    ⟨win4_3.index t (0 : Fin 2) * 1024 + p.val, by have := p.isLt; omega⟩ e
    (by show win4_3.index t (0 : Fin 2) * 1024 + 1 * p.val = win4_3.index t (0 : Fin 2) * 1024 + p.val; omega)
    (by show win4_3.index t (1 : Fin 2) * 1024 + 1 * e.val = e.val; omega)).symm
  unfold linAt
  have hX : ∀ k : Fin 1024, iblk4 V c 0 t (ix2 p k)
      = V c main_v13 (ix2 (⟨win4_3.index t (0 : Fin 2) * 1024 + p.val, by have := p.isLt; omega⟩ : Fin 4096) k) := fun k => by
    show V c main_v13 (((cfg4.win 0).blk t).view.emb (ix2 p k)) = _
    refine congrArg (V c main_v13) (funext fun a => Fin.ext ?_)
    match a with
    | ⟨0, _⟩ => show win4_0.index t (0 : Fin 2) * 1024 + 1 * p.val = win4_3.index t (0 : Fin 2) * 1024 + p.val; omega
    | ⟨1, _⟩ => show win4_0.index t (1 : Fin 2) * 1024 + 1 * k.val = k.val; omega
  have hW : ∀ k : Fin 1024, iblk4 V c 1 t (ix2 e k) = V c main_arg10 (ix2 e k) := fun k => by
    show V c main_arg10 (((cfg4.win 1).blk t).view.emb (ix2 e k)) = _
    refine congrArg (V c main_arg10) (funext fun a => Fin.ext ?_)
    match a with
    | ⟨0, _⟩ => show win4_1.index t (0 : Fin 2) * 1024 + 1 * e.val = e.val; omega
    | ⟨1, _⟩ => show win4_1.index t (1 : Fin 2) * 1024 + 1 * k.val = k.val; omega
  have hB : iblk4 V c 2 t (ix2 (0 : Fin 1) e) = V c main_v14 (ix2 (0 : Fin 1) e) := by
    show V c main_v14 (((cfg4.win 2).blk t).view.emb (ix2 (0 : Fin 1) e)) = _
    refine congrArg (V c main_v14) (funext fun a => Fin.ext ?_)
    match a with
    | ⟨0, _⟩ => show win4_2.index t (0 : Fin 2) * 1 + 1 * 0 = 0; omega
    | ⟨1, _⟩ => show win4_2.index t (1 : Fin 2) * 1024 + 1 * e.val = e.val; omega
  exact congrArg₂ (· + ·) (Finset.sum_congr rfl fun k _ => by rw [hX k, hW k]) hB

/-- An index of the output array is in point t's block iff each coordinate is in the block's range on its axis. -/
theorem mem_block (t : Fin cfg4.N) (i : S4096x1024.Idx) :
    i ∈ ((cfg4.win 3).blk t).view.set ↔ ∀ a : Fin 2, win4_3.index t a * S1024x1024.size a ≤ (i a).val
      ∧ (i a).val < win4_3.index t a * S1024x1024.size a + S1024x1024.size a := by
  show i ∈ ((View.whole main_v15).slice (win4_3.rect t)).set ↔ _
  rw [View.set_slice_whole, Rect.mem_set_unit]
  exact Iff.rfl

/-- The four row blocks cover the output array. -/
theorem covered (i : S4096x1024.Idx) :
    ∃ t : Fin cfg4.N, (cfg4.win 3).flush t = true ∧ i ∈ ((cfg4.win 3).blk t).view.set := by
  have hi0 : (i 0).val < 4096 := (i 0).isLt
  have hi1 : (i 1).val < 1024 := (i 1).isLt
  obtain ⟨t, ht⟩ := maps_onto ⟨(i 0).val / 1024, by omega⟩
  have q0 : win4_3.index t (0 : Fin 2) = (i 0).val / 1024 := congrFun ht 0
  have q1 : win4_3.index t (1 : Fin 2) = 0 := congrFun ht 1
  refine ⟨t, flush4_3 t, ?_⟩
  rw [mem_block]
  intro a
  match a with
  | ⟨0, _⟩ => show win4_3.index t (0 : Fin 2) * 1024 ≤ (i 0).val ∧ (i 0).val < win4_3.index t (0 : Fin 2) * 1024 + 1024; omega
  | ⟨1, _⟩ => show win4_3.index t (1 : Fin 2) * 1024 ≤ (i 1).val ∧ (i 1).val < win4_3.index t (1 : Fin 2) * 1024 + 1024; omega

/-- The output array after the region: the layer on the arrays the region finds. -/
theorem region_value (c : Dev nD) :
    (dat4 V c).arrAt 3 cfg4.N = lin2 (V c main_v13) (V c main_arg10) (V c main_v14) :=
  (dat4 V c).arrAt_eq_of_cover 3 (lin2 (V c main_v13) (V c main_arg10) (V c main_v14)) (fun t _ => written_eq V c t) covered

end Cert.KernelIdeal.Lin4

end
-- ==== Proof.Spec.lean ====
/-
  Multi-head attention over extended reals, as whole-array functions of the argument arrays.

  Shapes: activations are [2, 2048, 1024] (batch, position, model column), a model column e = h·64 + d
  naming head h of 16 and head coordinate d of 64; weights are [1024, 1024] stored [out, in]; biases [1024];
  the additive score bias and the attention weights are [2, 16, 2048, 2048] (batch, head, query, key).

  * a projection:            P[b, s, e]     = (∑ k, X[b, s, k] · W[e, k]) + bias[e]
  * a score:                 S[b, h, s, t]  = (∑ d, q[b, s, h·64+d] · k[b, t, h·64+d]) · (1/8) + prev[b, h, s, t]
  * the row maximum:         M[b, h, s]     = the fold of max from −∞ over t of S[b, h, s, t]
  * the unnormalised weight: E[b, h, s, t]  = exp (S[b, h, s, t] − M[b, h, s])
  * the attention weight:    A[b, h, s, t]  = E[b, h, s, t] / ∑ t', E[b, h, s, t']
  * the context:             C[b, s, h·64+d] = ∑ t, A[b, h, s, t] · v[b, t, h·64+d]
  * the output:              a projection of C.
  The literals 1/8 and −∞ are kept as the f32 words both programs print.
-/
import Idealize.ShloMosaic.PureOps.Ideal
import Idealize.ShloMosaic.Lib.ValueIdx

noncomputable section

namespace Cert.Attn

open Idealize.ShloMosaic Idealize.ShloMosaic.ValueIdx

abbrev SAct : Shape := ⟨3, ![2, 2048, 1024]⟩
abbrev SW : Shape := ⟨2, ![1024, 1024]⟩
abbrev SB : Shape := ⟨1, ![1024]⟩
abbrev SP : Shape := ⟨4, ![2, 16, 2048, 2048]⟩

/-- Model column h·64 + d. -/
def col (h : Fin 16) (d : Fin 64) : Fin 1024 := ⟨h.val * 64 + d.val, by have := h.isLt; have := d.isLt; omega⟩

theorem col_val (h : Fin 16) (d : Fin 64) : (col h d).val = h.val * 64 + d.val := rfl

/-- The head of a model column. -/
def headOf (e : Fin 1024) : Fin 16 := ⟨e.val / 64, by have := e.isLt; omega⟩
/-- The coordinate of a model column inside its head. -/
def dimOf (e : Fin 1024) : Fin 64 := ⟨e.val % 64, Nat.mod_lt _ (by decide)⟩

theorem col_headOf_dimOf (e : Fin 1024) : col (headOf e) (dimOf e) = e :=
  Fin.ext (by show e.val / 64 * 64 + e.val % 64 = e.val; omega)

theorem headOf_col (h : Fin 16) (d : Fin 64) : headOf (col h d) = h :=
  Fin.ext (by show (h.val * 64 + d.val) / 64 = h.val; have := d.isLt; omega)

theorem dimOf_col (h : Fin 16) (d : Fin 64) : dimOf (col h d) = d :=
  Fin.ext (by show (h.val * 64 + d.val) % 64 = d.val; have := d.isLt; omega)

/-- A projection at (b, s, e): the row of X against row e of the [out, in] weight, plus the bias. -/
def projAt (X : FVec Ideal SAct .f32) (W : FVec Ideal SW .f32) (bias : FVec Ideal SB .f32)
    (b : Fin 2) (s : Fin 2048) (e : Fin 1024) : EReal :=
  (∑ k : Fin 1024, X (ix3 b s k) * W (ix2 e k)) + bias (ix1 e)

/-- The projected activations as an array. -/
def projArr (X : FVec Ideal SAct .f32) (W : FVec Ideal SW .f32) (bias : FVec Ideal SB .f32) : FVec Ideal SAct .f32 :=
  fun i => projAt X W bias (i 0) (i 1) (i 2)

theorem projArr_apply (X : FVec Ideal SAct .f32) (W : FVec Ideal SW .f32) (bias : FVec Ideal SB .f32)
    (b : Fin 2) (s : Fin 2048) (e : Fin 1024) : projArr X W bias (ix3 b s e) = projAt X W bias b s e := rfl

/-- The scaled score of query s against key t in head h, plus the additive bias. -/
def scoreAt (q k : FVec Ideal SAct .f32) (prev : FVec Ideal SP .f32) (b : Fin 2) (h : Fin 16) (s t : Fin 2048) : EReal :=
  (∑ d : Fin 64, q (ix3 b s (col h d)) * k (ix3 b t (col h d))) * Ideal.ofBits .f32 0x3E000000#32 + prev (ix4 b h s t)

/-- The largest score of a query's row, as the fold of max from −∞. -/
def rowMax (q k : FVec Ideal SAct .f32) (prev : FVec Ideal SP .f32) (b : Fin 2) (h : Fin 16) (s : Fin 2048) : EReal :=
  (Finset.univ : Finset (Fin 2048)).fold max (Ideal.ofBits .f32 0xFF800000#32) (fun t => scoreAt q k prev b h s t)

/-- The exponential of a score below its row's maximum. -/
def expAt (q k : FVec Ideal SAct .f32) (prev : FVec Ideal SP .f32) (b : Fin 2) (h : Fin 16) (s t : Fin 2048) : EReal :=
  Ideal.exp (scoreAt q k prev b h s t - rowMax q k prev b h s)

/-- The sum of a row's exponentials. -/
def rowSum (q k : FVec Ideal SAct .f32) (prev : FVec Ideal SP .f32) (b : Fin 2) (h : Fin 16) (s : Fin 2048) : EReal :=
  ∑ t : Fin 2048, expAt q k prev b h s t

/-- The attention weight: the row's softmax. -/
def attnAt (q k : FVec Ideal SAct .f32) (prev : FVec Ideal SP .f32) (b : Fin 2) (h : Fin 16) (s t : Fin 2048) : EReal :=
  Ideal.div (expAt q k prev b h s t) (rowSum q k prev b h s)

/-- The attention weights as an array. -/
def attnArr (q k : FVec Ideal SAct .f32) (prev : FVec Ideal SP .f32) : FVec Ideal SP .f32 :=
  fun i => attnAt q k prev (i 0) (i 1) (i 2) (i 3)

theorem attnArr_apply (q k : FVec Ideal SAct .f32) (prev : FVec Ideal SP .f32) (b : Fin 2) (h : Fin 16) (s t : Fin 2048) :
    attnArr q k prev (ix4 b h s t) = attnAt q k prev b h s t := rfl

/-- The context of query s in head h at head coordinate d: the weights against the values. -/
def ctxAt (q k v : FVec Ideal SAct .f32) (prev : FVec Ideal SP .f32) (b : Fin 2) (s : Fin 2048) (h : Fin 16) (d : Fin 64) : EReal :=
  ∑ t : Fin 2048, attnAt q k prev b h s t * v (ix3 b t (col h d))

/-- The contexts as an array, heads laid side by side along the model axis. -/
def ctxArr (q k v : FVec Ideal SAct .f32) (prev : FVec Ideal SP .f32) : FVec Ideal SAct .f32 :=
  fun i => ctxAt q k v prev (i 0) (i 1) (headOf (i 2)) (dimOf (i 2))

theorem ctxArr_apply (q k v : FVec Ideal SAct .f32) (prev : FVec Ideal SP .f32) (b : Fin 2) (s : Fin 2048) (h : Fin 16) (d : Fin 64) :
    ctxArr q k v prev (ix3 b s (col h d)) = ctxAt q k v prev b s h d := by
  show ctxAt q k v prev b s (headOf (col h d)) (dimOf (col h d)) = _
  rw [headOf_col, dimOf_col]

/-- Writing to −∞ the larger of −∞ and y gives y. -/
theorem max_negInf (y : EReal) : max (Ideal.ofBits .f32 0xFF800000#32) y = y := by
  simp [Ideal.ofBits, Ideal.ieee]

end Cert.Attn

end
-- ==== Proof.LibAxisCasts.lean ====
/-
  Re-laid arrays read at an index given by coordinates: a unit axis inserted in the middle of a matrix, rows or
  planes repeated along a new or unit axis, a vector viewed with two leading unit axes, and the two leading axes of
  a rank-3 array merged into one (and split again).

  A shape cast keeps the row-major position of every element, so an element of the result is the operand's element
  with the same position; a broadcast reads the operand at the result's coordinates, with coordinate 0 on each of the
  operand's unit axes.  Each lemma below is that fact at one pair of shapes with both indices written by their
  coordinates, so that it applies to a printed operation by unification.
-/
import Idealize.ShloMosaic.Lib.Pipeline.Value
import Idealize.ShloMosaic.Lib.ValueIdx

namespace Idealize.ShloMosaic.AxisCasts

open Idealize.ShloMosaic Idealize.ShloMosaic.ValueIdx

variable {α : Type}

/-- An `[a, b]` matrix cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, b]` array broadcast to `[a, c, b]` reads, at `(i, u, j)`, the operand at `(i, 0, j)`: every
    middle coordinate sees the same row. -/
theorem broadcastTo_a1b_acb_apply {a c b : ℕ} (x : (⟨3, ![a, 1, b]⟩ : Shape).Idx → α)
    (h : (⟨3, ![a, 1, b]⟩ : Shape).Broadcasts ⟨3, ![a, c, b]⟩) (i : Fin a) (u : Fin c) (j : Fin b) :
    broadcastTo ⟨3, ![a, c, b]⟩ x h (ix3 i u j) = x (ix3 i (0 : Fin 1) j) := by
  refine broadcastTo_apply x h (ix3 i u j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, u, j)`, the operand at `(0, u, j)`: every
    leading coordinate sees the same plane. -/
theorem broadcastTo_1cb_acb_apply {a c b : ℕ} (x : (⟨3, ![1, c, b]⟩ : Shape).Idx → α)
    (h : (⟨3, ![1, c, b]⟩ : Shape).Broadcasts ⟨3, ![a, c, b]⟩) (i : Fin a) (u : Fin c) (j : Fin b) :
    broadcastTo ⟨3, ![a, c, b]⟩ x h (ix3 i u j) = x (ix3 (0 : Fin 1) u j) := by
  refine broadcastTo_apply x h (ix3 i u j) (ix3 (0 : Fin 1) u j) fun ax => ?_
  match ax with
  | ⟨0, _⟩ => rfl
  | ⟨1, _⟩ =>
    show u.val = if c = 1 then 0 else u.val
    split
    · have := u.isLt; omega
    · rfl
  | ⟨2, _⟩ =>
    show j.val = if b = 1 then 0 else j.val
    split
    · have := j.isLt; omega
    · rfl

/-- An `[a]` vector cast to `[1, 1, a]` reads, at `(u, u', k)`, the operand at `k`. -/
theorem shapeCast_a_11a_apply {a : ℕ} (x : (⟨1, ![a]⟩ : Shape).Idx → α)
    (h : (⟨1, ![a]⟩ : Shape).ShapeCasts ⟨3, ![1, 1, a]⟩) (u u' : Fin 1) (k : Fin a) :
    shapeCast ⟨3, ![1, 1, a]⟩ x h (ix3 u u' k) = x (ix1 k) :=
  shapeCast_apply x h _ _ (by
    have hu : u.val = 0 := by omega
    have hu' : u'.val = 0 := by omega
    rw [Shape.rowMajor_val_one, Shape.rowMajor_val_three]
    show k.val = (u.val * 1 + u'.val) * a + k.val
    rw [hu, hu']; omega)

/-- A `[1, 1, b]` array broadcast to `[a, c, b]` reads, at `(i, u, j)`, the operand at `(0, 0, j)`: one row
    repeated over both leading axes. -/
theorem broadcastTo_11b_acb_apply {a c b : ℕ} (x : (⟨3, ![1, 1, b]⟩ : Shape).Idx → α)
    (h : (⟨3, ![1, 1, b]⟩ : Shape).Broadcasts ⟨3, ![a, c, b]⟩) (i : Fin a) (u : Fin c) (j : Fin b) :
    broadcastTo ⟨3, ![a, c, b]⟩ x h (ix3 i u j) = x (ix3 (0 : Fin 1) (0 : Fin 1) j) := by
  refine broadcastTo_apply x h (ix3 i u j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

/-- An `[a, c, b]` array cast to `[m, b]` (its two leading axes merged, `m = a · c`) reads, at `(r, k)`, the
    operand at `(i, u, k)` where `r = i · c + u`. -/
theorem shapeCast_acb_mb_apply {a c b m : ℕ} (x : (⟨3, ![a, c, b]⟩ : Shape).Idx → α)
    (h : (⟨3, ![a, c, b]⟩ : Shape).ShapeCasts ⟨2, ![m, b]⟩) (r : Fin m) (k : Fin b) (i : Fin a) (u : Fin c)
    (hr : r.val = i.val * c + u.val) :
    shapeCast ⟨2, ![m, b]⟩ x h (ix2 r k) = x (ix3 i u k) :=
  shapeCast_apply x h _ _ (by
    rw [Shape.rowMajor_val_three, Shape.rowMajor_val_two]
    show (i.val * c + u.val) * b + k.val = r.val * b + k.val
    rw [hr])

/-- An `[m, b]` matrix cast to `[a, c, b]` (its rows split into `a` groups of `c`, `m = a · c`) reads, at
    `(i, u, k)`, the operand at `(r, k)` where `r = i · c + u`. -/
theorem shapeCast_mb_acb_apply {a c b m : ℕ} (x : (⟨2, ![m, b]⟩ : Shape).Idx → α)
    (h : (⟨2, ![m, b]⟩ : Shape).ShapeCasts ⟨3, ![a, c, b]⟩) (i : Fin a) (u : Fin c) (k : Fin b) (r : Fin m)
    (hr : r.val = i.val * c + u.val) :
    shapeCast ⟨3, ![a, c, b]⟩ x h (ix3 i u k) = x (ix2 r k) :=
  shapeCast_apply x h _ _ (by
    rw [Shape.rowMajor_val_two, Shape.rowMajor_val_three]
    show r.val * b + k.val = (i.val * c + u.val) * b + k.val
    rw [hr])

end Idealize.ShloMosaic.AxisCasts
-- ==== Proof.LinBridge.lean ====
/-
  A projection computed on flattened rows: flatten the [2, 2048, 1024] activations to [4096, 1024] (row r = b·2048 + s),
  view the [1024] bias as a [1, 1024] row, apply the linear layer on all 4096 rows, and split the rows back to
  [2, 2048, 1024] — entry (b, s, e) of the result is the projection P[b, s, e] = (∑ k, X[b, s, k] · W[e, k]) + bias[e].
  And the other way: flattening an array and splitting it back changes nothing.
-/
import proofs.«127580_j11682311045245_2_alg».proof.Proof.Spec
import proofs.«127580_j11682311045245_2_alg».proof.Proof.LinSpec
import proofs.«127580_j11682311045245_2_alg».proof.Proof.LibAxisCasts
import Idealize.ShloMosaic.Lib.ValueLayout
import Idealize.ShloMosaic.Lib.Pipeline.Value

noncomputable section

namespace Cert.LinBridge

open Cert.Attn Cert.Lin
open Idealize.ShloMosaic Idealize.ShloMosaic.ValueIdx Idealize.ShloMosaic.AxisCasts

/-- Row b·2048 + s of the flattened activations. -/
def flatRow (b : Fin 2) (s : Fin 2048) : Fin 4096 := ⟨b.val * 2048 + s.val, by have := b.isLt; have := s.isLt; omega⟩

theorem split_lin_flat (X : FVec Ideal SAct .f32) (W : FVec Ideal SW .f32) (bias : FVec Ideal SB .f32)
    (h1 : SAct.ShapeCasts SRows) (h2 : SB.ShapeCasts SRow) (h3 : SRows.ShapeCasts SAct) :
    shapeCast SAct (lin2 (shapeCast SRows X h1) W (shapeCast SRow bias h2)) h3 = projArr X W bias := by
  funext i
  obtain ⟨b, s, e, rfl⟩ : ∃ (b : Fin 2) (s : Fin 2048) (e : Fin 1024), i = ix3 b s e := ⟨i 0, i 1, i 2, eq_ix3 i⟩
  rw [shapeCast_mb_acb_apply _ h3 b s e (flatRow b s) rfl, lin2_apply, projArr_apply]
  unfold linAt projAt
  refine congrArg₂ (· + ·) (Finset.sum_congr rfl fun k _ => ?_) (shapeCast_a_1a_apply bias h2 0 e)
  rw [shapeCast_acb_mb_apply X h1 (flatRow b s) k b s rfl]

/-- Splitting the rows of an array flattened from [2, 2048, 1024] gives the array back. -/
theorem flat_of_split_eq (Y : FVec Ideal SAct .f32) (h1 : SAct.ShapeCasts SRows) (Z : FVec Ideal SRows .f32)
    (h3 : SRows.ShapeCasts SAct) (hZ : shapeCast SAct Z h3 = Y) : Z = shapeCast SRows Y h1 := by
  subst hZ
  exact (shapeCast_shapeCast Z h3 h1).symm

end Cert.LinBridge

end
-- ==== Proof.KernelValue.lean ====
/-
  What the idealized kernel's two result buffers hold, as functions of the twelve argument arrays:
    the first result  = the output projection of the contexts of the three projected activations,
    the second result = the attention weights of the projected queries and keys.
  Region by region: each linear region applies the layer to the flattened activations it finds, the host reshapes
  between regions flatten and split rows, and the attention region computes weights and contexts of the arrays it finds.
-/
import proofs.«127580_j11682311045245_2_alg».proof.Proof.Chain
import proofs.«127580_j11682311045245_2_alg».proof.Proof.KernelRun
import proofs.«127580_j11682311045245_2_alg».proof.Proof.LinRegion0
import proofs.«127580_j11682311045245_2_alg».proof.Proof.LinRegion1
import proofs.«127580_j11682311045245_2_alg».proof.Proof.LinRegion2
import proofs.«127580_j11682311045245_2_alg».proof.Proof.LinRegion4
import proofs.«127580_j11682311045245_2_alg».proof.Proof.LinBridge

set_option maxRecDepth 16384

noncomputable section

namespace Cert.KernelIdeal.KValue

open Cert.KernelIdeal Cert.KernelIdeal.Gen Cert.Attn Cert.Lin
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg) (c : Dev nD)

/-- The projected queries, keys and values of the launched arrays. -/
def qArr : FVec Ideal SAct .f32 :=
  projArr (m ((c : Thread nD τ).loc main_arg0)) (m ((c : Thread nD τ).loc main_arg4)) (m ((c : Thread nD τ).loc main_arg5))
def kArr : FVec Ideal SAct .f32 :=
  projArr (m ((c : Thread nD τ).loc main_arg1)) (m ((c : Thread nD τ).loc main_arg6)) (m ((c : Thread nD τ).loc main_arg7))
def vArr : FVec Ideal SAct .f32 :=
  projArr (m ((c : Thread nD τ).loc main_arg2)) (m ((c : Thread nD τ).loc main_arg8)) (m ((c : Thread nD τ).loc main_arg9))

/-- The attention region finds the projected queries. -/
theorem entry_q : V7 m ρ c main_v9 = qArr m c := by
  rw [Chain.V7_main_v9, Chain.W6_main_v4, Lin0.region_value (V1 m ρ) c]
  rw [show V1 m ρ c main_v0 = _ from Chain.W1_main_v0 m ρ c, show V1 m ρ c main_arg4 = _ from Chain.W1_main_arg4 m ρ c,
    show V1 m ρ c main_v3 = _ from Chain.W1_main_v3 m ρ c]
  exact LinBridge.split_lin_flat _ _ _ _ _ _

/-- The attention region finds the projected keys. -/
theorem entry_k : V7 m ρ c main_v10 = kArr m c := by
  rw [Chain.V7_main_v10, Chain.W6_main_v6, Lin1.region_value (V3 m ρ) c]
  rw [Chain.V3_main_v1, show V3 m ρ c main_arg6 = _ from Chain.W3_main_arg6 m ρ c, Chain.V3_main_v5]
  exact LinBridge.split_lin_flat _ _ _ _ _ _

/-- The attention region finds the projected values. -/
theorem entry_v : V7 m ρ c main_v11 = vArr m c := by
  rw [Chain.V7_main_v11, Chain.W6_main_v8, Lin2.region_value (V5 m ρ) c]
  rw [Chain.V5_main_v2, show V5 m ρ c main_arg8 = _ from Chain.W5_main_arg8 m ρ c, Chain.V5_main_v7]
  exact LinBridge.split_lin_flat _ _ _ _ _ _

/-- The attention region finds the additive score bias as launched. -/
theorem entry_prev : V7 m ρ c main_arg3 = m ((c : Thread nD τ).loc main_arg3) := Chain.W7_main_arg3 m ρ c

section Results

variable (hWeights : ∀ (V : (c : Dev nD) → (b : Ref sig .tc) → Buf (Elt Ideal) ((c : Thread nD τ).loc b)) (c : Dev nD),
    (dat3 V c).arrAt 5 cfg3.N = attnArr (V c main_v9) (V c main_v10) (V c main_arg3))
  (hCtx : ∀ (V : (c : Dev nD) → (b : Ref sig .tc) → Buf (Elt Ideal) ((c : Thread nD τ).loc b)) (c : Dev nD),
    (dat3 V c).arrAt 4 cfg3.N = ctxArr (V c main_v9) (V c main_v10) (V c main_v11) (V c main_arg3))

include hWeights in
/-- The second result: the attention weights. -/
theorem weights_value : W11 m ρ c (Proc.devRef .tc main_v12_1)
    = attnArr (qArr m c) (kArr m c) (m ((c : Thread nD τ).loc main_arg3)) := by
  rw [Chain.W11_main_v12_1, hWeights (V7 m ρ) c, entry_q, entry_k, entry_prev]

include hCtx in
/-- The first result: the output projection of the contexts. -/
theorem out_value : W11 m ρ c (Proc.devRef .tc main_v16)
    = projArr (ctxArr (qArr m c) (kArr m c) (vArr m c) (m ((c : Thread nD τ).loc main_arg3)))
        (m ((c : Thread nD τ).loc main_arg10)) (m ((c : Thread nD τ).loc main_arg11)) := by
  rw [Chain.W11_main_v16, Lin4.region_value (V9 m ρ) c]
  rw [Chain.V9_main_v13, Chain.W8_main_v12_0, hCtx (V7 m ρ) c, entry_q, entry_k, entry_v, entry_prev,
    show V9 m ρ c main_arg10 = _ from Chain.W9_main_arg10 m ρ c, Chain.V9_main_v14]
  exact LinBridge.split_lin_flat _ _ _ _ _ _

include hWeights hCtx in
/-- The kernel's run with both results named and the arguments as launched. -/
theorem run : θ_run defs (onTc (τ := τ) (main (F := Ideal))) ⟨m, fun _ => 0, ρ⟩ (fun r => ∀ c : Dev nD,
      r.2.mem ((c.tc : Thread nD τ).loc main_v16)
        = projArr (ctxArr (qArr m c) (kArr m c) (vArr m c) (m ((c : Thread nD τ).loc main_arg3)))
            (m ((c : Thread nD τ).loc main_arg10)) (m ((c : Thread nD τ).loc main_arg11))
      ∧ r.2.mem ((c.tc : Thread nD τ).loc main_v12_1) = attnArr (qArr m c) (kArr m c) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v16 (by decide))).trans (out_value m ρ c hCtx),
     (h c _ (mem_uc main_v12_1 (by decide))).trans (weights_value m ρ c hWeights),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c)⟩)
    (RunAll.run_all m ρ)

end Results

end Cert.KernelIdeal.KValue

end
-- ==== Proof.RefProj.lean ====
/-
  The reference's projections, read as the specification's.

  Each of the reference's three input projections is a contraction of the activation's model axis against the
  second axis of an [out, in] weight, followed by the bias broadcast along batch and position and added. Read at
  (b, s, e) that is (∑ k, X[b, s, k] · W[e, k]) + bias[e], the specification's projection. The proof reads the
  stages outermost first and identifies each composed index with its coordinates.
-/
import proofs.«127580_j11682311045245_2_alg».proof.Proof.Gen.ReferenceIdeal.Read
import proofs.«127580_j11682311045245_2_alg».proof.Proof.Spec

noncomputable section

namespace Cert.RefAttn

open Cert.ReferenceIdeal Cert.ReferenceIdeal.Gen Cert.ReferenceIdeal.Read Idealize.ShloMosaic Idealize.ShloMosaic.ValueIdx Cert.Attn

/-- Two rank-1 indices with the same coordinate values are equal. -/
macro "idx_cases1" : tactic =>
  `(tactic| exact funext fun a => Fin.ext (by match a with | ⟨0, _⟩ => rfl))
/-- Two rank-2 indices with the same coordinate values are equal. -/
macro "idx_cases2" : tactic =>
  `(tactic| exact funext fun a => Fin.ext (by match a with | ⟨0, _⟩ => rfl | ⟨1, _⟩ => rfl))
/-- Two rank-3 indices with the same coordinate values are equal. -/
macro "idx_cases3" : tactic =>
  `(tactic| exact funext fun a => Fin.ext (by match a with | ⟨0, _⟩ => rfl | ⟨1, _⟩ => rfl | ⟨2, _⟩ => rfl))

/-- An array whose entry at (b, s, e) is row (b, s) of X against row e of W, plus the bias at e, is the projection. -/
theorem eq_projArr (X : FVec Ideal SAct .f32) (W : FVec Ideal SW .f32) (bias : FVec Ideal SB .f32) (P : FVec Ideal SAct .f32)
    (h : ∀ (b : Fin 2) (s : Fin 2048) (e : Fin 1024),
      P (ix3 b s e) = (∑ k : Fin 1024, X (ix3 b s k) * W (ix2 e k)) + bias (ix1 e)) :
    P = projArr X W bias := by
  funext i
  obtain ⟨b, s, e, rfl⟩ : ∃ (b : Fin 2) (s : Fin 2048) (e : Fin 1024), i = ix3 b s e := ⟨i 0, i 1, i 2, eq_ix3 i⟩
  exact h b s e

/-- The reference's projection of x0 by the [out, in] weight x4 with bias x5 is the specification's projection. -/
theorem val_main_v3_eq_projArr (x0 : (⟨S2x2048x1024, .f32⟩ : BufTy).Contents (Elt Ideal)) (x4 : (⟨S1024x1024, .f32⟩ : BufTy).Contents (Elt Ideal)) (x5 : (⟨S1024, .f32⟩ : BufTy).Contents (Elt Ideal)) :
    val_main_v3 (F := Ideal) x0 x4 x5 = projArr x0 x4 x5 := by
  refine eq_projArr x0 x4 x5 _ fun b s e => ?_
  rw [val_main_v3_apply, val_main_v0_apply, val_main_v2_apply, val_main_v1_apply]
  have el : ∀ k : Fin 1024, lidx_main_v0 (ix3 b s e) k = ix3 b s k := fun k => by idx_cases3
  have er : ∀ k : Fin 1024, ridx_main_v0 (ix3 b s e) k = ix2 e k := fun k => by idx_cases2
  have eb : idx_main_v1 (idx_main_v2 (ix3 b s e)) = ix1 e := by idx_cases1
  rw [eb]
  exact congrArg (· + x5 (ix1 e)) (Finset.sum_congr rfl fun k _ => by rw [el k, er k])

/-- The reference's projection of x1 by the [out, in] weight x6 with bias x7 is the specification's projection. -/
theorem val_main_v9_eq_projArr (x1 : (⟨S2x2048x1024, .f32⟩ : BufTy).Contents (Elt Ideal)) (x6 : (⟨S1024x1024, .f32⟩ : BufTy).Contents (Elt Ideal)) (x7 : (⟨S1024, .f32⟩ : BufTy).Contents (Elt Ideal)) :
    val_main_v9 (F := Ideal) x1 x6 x7 = projArr x1 x6 x7 := by
  refine eq_projArr x1 x6 x7 _ fun b s e => ?_
  rw [val_main_v9_apply, val_main_v6_apply, val_main_v8_apply, val_main_v7_apply]
  have el : ∀ k : Fin 1024, lidx_main_v6 (ix3 b s e) k = ix3 b s k := fun k => by idx_cases3
  have er : ∀ k : Fin 1024, ridx_main_v6 (ix3 b s e) k = ix2 e k := fun k => by idx_cases2
  have eb : idx_main_v7 (idx_main_v8 (ix3 b s e)) = ix1 e := by idx_cases1
  rw [eb]
  exact congrArg (· + x7 (ix1 e)) (Finset.sum_congr rfl fun k _ => by rw [el k, er k])

/-- The reference's projection of x2 by the [out, in] weight x8 with bias x9 is the specification's projection. -/
theorem val_main_v15_eq_projArr (x2 : (⟨S2x2048x1024, .f32⟩ : BufTy).Contents (Elt Ideal)) (x8 : (⟨S1024x1024, .f32⟩ : BufTy).Contents (Elt Ideal)) (x9 : (⟨S1024, .f32⟩ : BufTy).Contents (Elt Ideal)) :
    val_main_v15 (F := Ideal) x2 x8 x9 = projArr x2 x8 x9 := by
  refine eq_projArr x2 x8 x9 _ fun b s e => ?_
  rw [val_main_v15_apply, val_main_v12_apply, val_main_v14_apply, val_main_v13_apply]
  have el : ∀ k : Fin 1024, lidx_main_v12 (ix3 b s e) k = ix3 b s k := fun k => by idx_cases3
  have er : ∀ k : Fin 1024, ridx_main_v12 (ix3 b s e) k = ix2 e k := fun k => by idx_cases2
  have eb : idx_main_v13 (idx_main_v14 (ix3 b s e)) = ix1 e := by idx_cases1
  rw [eb]
  exact congrArg (· + x9 (ix1 e)) (Finset.sum_congr rfl fun k _ => by rw [el k, er k])

end Cert.RefAttn

end
-- ==== Proof.RefAttn.lean ====
/-
  The reference's attention weights, read as the specification's.

  The projected queries and keys are re-laid [2, 2048, 1024] → [2, 2048, 16, 64] → [2, 16, 2048, 64]: entry
  (b, h, s, d) of the re-laid array is entry (b, s, h·64 + d) of the projection. The scores contract the head
  coordinate d, are scaled by the word for 1/8 and shifted by the additive bias; the row maximum is the fold of
  max from −∞ along the key axis (the reference then takes the larger of −∞ and it, which changes nothing); the
  weights are the exponentials below the maximum over their row sum (the host's sum starts from the zero word).
-/
import proofs.«127580_j11682311045245_2_alg».proof.Proof.Gen.ReferenceIdeal.Read
import proofs.«127580_j11682311045245_2_alg».proof.Proof.Spec
import proofs.«127580_j11682311045245_2_alg».proof.Proof.RefProj

noncomputable section

namespace Cert.RefAttn

open Cert.ReferenceIdeal Cert.ReferenceIdeal.Gen Cert.ReferenceIdeal.Read Idealize.ShloMosaic Idealize.ShloMosaic.ValueIdx Cert.Attn

/-- Two rank-4 indices with the same coordinate values are equal. -/
macro "idx_cases4" : tactic =>
  `(tactic| exact funext fun a => Fin.ext (by match a with | ⟨0, _⟩ => rfl | ⟨1, _⟩ => rfl | ⟨2, _⟩ => rfl | ⟨3, _⟩ => rfl))

/-! ## The row-major position of (b, s, h, d) in [2, 2048, 16, 64], split along [2, 2048, 1024] -/

theorem split_batch (b : Fin 2) (s : Fin 2048) (h : Fin 16) (d : Fin 64) :
    (((b.val * 2048 + s.val) * 16 + h.val) * 64 + d.val) / 2097152 = b.val := by
  have := b.isLt; have := s.isLt; have := h.isLt; have := d.isLt; omega

theorem split_pos (b : Fin 2) (s : Fin 2048) (h : Fin 16) (d : Fin 64) :
    (((b.val * 2048 + s.val) * 16 + h.val) * 64 + d.val) / 1024 % 2048 = s.val := by
  have := b.isLt; have := s.isLt; have := h.isLt; have := d.isLt; omega

theorem split_col (b : Fin 2) (s : Fin 2048) (h : Fin 16) (d : Fin 64) :
    (((b.val * 2048 + s.val) * 16 + h.val) * 64 + d.val) % 1024 = (col h d).val := by
  have := b.isLt; have := s.isLt; have := h.isLt; have := d.isLt; rw [col_val]; omega

/-- Entry (b, h, s, d) of the re-laid queries is entry (b, s, h·64 + d) of the projection. -/
theorem val_main_v5_at (x0 : (⟨S2x2048x1024, .f32⟩ : BufTy).Contents (Elt Ideal)) (x4 : (⟨S1024x1024, .f32⟩ : BufTy).Contents (Elt Ideal)) (x5 : (⟨S1024, .f32⟩ : BufTy).Contents (Elt Ideal))
    (b : Fin 2) (h : Fin 16) (s : Fin 2048) (d : Fin 64) :
    val_main_v5 (F := Ideal) x0 x4 x5 (ix4 b h s d) = val_main_v3 (F := Ideal) x0 x4 x5 (ix3 b s (col h d)) := by
  rw [val_main_v5_apply, val_main_v4_apply]
  exact congrArg _ (funext fun a => Fin.ext (by
    match a with
    | ⟨0, _⟩ => exact split_batch b s h d
    | ⟨1, _⟩ => exact split_pos b s h d
    | ⟨2, _⟩ => exact split_col b s h d))

/-- Entry (b, h, t, d) of the re-laid keys is entry (b, t, h·64 + d) of the projection. -/
theorem val_main_v11_at (x1 : (⟨S2x2048x1024, .f32⟩ : BufTy).Contents (Elt Ideal)) (x6 : (⟨S1024x1024, .f32⟩ : BufTy).Contents (Elt Ideal)) (x7 : (⟨S1024, .f32⟩ : BufTy).Contents (Elt Ideal))
    (b : Fin 2) (h : Fin 16) (t : Fin 2048) (d : Fin 64) :
    val_main_v11 (F := Ideal) x1 x6 x7 (ix4 b h t d) = val_main_v9 (F := Ideal) x1 x6 x7 (ix3 b t (col h d)) := by
  rw [val_main_v11_apply, val_main_v10_apply]
  exact congrArg _ (funext fun a => Fin.ext (by
    match a with
    | ⟨0, _⟩ => exact split_batch b t h d
    | ⟨1, _⟩ => exact split_pos b t h d
    | ⟨2, _⟩ => exact split_col b t h d))

/-- The reference's biased, scaled score at (b, h, s, t). -/
theorem val_main_v21_at (x0 x1 : (⟨S2x2048x1024, .f32⟩ : BufTy).Contents (Elt Ideal)) (x3 : (⟨S2x16x2048x2048, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (b : Fin 2) (h : Fin 16) (s t : Fin 2048) :
    val_main_v21 (F := Ideal) x0 x1 x3 x4 x5 x6 x7 (ix4 b h s t) = scoreAt (val_main_v3 (F := Ideal) x0 x4 x5) (val_main_v9 (F := Ideal) x1 x6 x7) x3 b h s t := by
  rw [val_main_v21_apply, val_main_v20_apply, val_main_v18_apply, val_main_v19_apply, val_main_cst_apply]
  have el : ∀ d : Fin 64, lidx_main_v18 (ix4 b h s t) d = ix4 b h s d := fun d => by idx_cases4
  have er : ∀ d : Fin 64, ridx_main_v18 (ix4 b h s t) d = ix4 b h t d := fun d => by idx_cases4
  exact congrArg (fun z => z * Ideal.ofBits .f32 0x3E000000#32 + x3 (ix4 b h s t))
    (Finset.sum_congr rfl fun d _ => by rw [el d, er d, val_main_v5_at, val_main_v11_at])

/-- The key axis put back into (b, h, s) at coordinate t is (b, h, s, t). -/
theorem lift_key (hr : S2x16x2048x2048.Reduces [3] S2x16x2048) (b : Fin 2) (h : Fin 16) (s : Fin 2048)
    (t : Fin (S2x16x2048x2048.size 3)) : hr.lift (ix3 b h s) t = ix4 b h s (⟨t.val, t.isLt⟩ : Fin 2048) := by
  funext c; apply Fin.ext
  fin_cases c <;> rfl

/-- The reference's row maximum at (b, h, s): the fold of max from −∞ over the row's scores. -/
theorem val_main_v24_at (x0 x1 : (⟨S2x2048x1024, .f32⟩ : BufTy).Contents (Elt Ideal)) (x3 : (⟨S2x16x2048x2048, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (b : Fin 2) (h : Fin 16) (s : Fin 2048) :
    val_main_v24 (F := Ideal) x0 x1 x3 x4 x5 x6 x7 (ix3 b h s) = rowMax (val_main_v3 (F := Ideal) x0 x4 x5) (val_main_v9 (F := Ideal) x1 x6 x7) x3 b h s := by
  rw [val_main_v24_apply, val_main_v23_apply, val_main_cst_1_apply]
  unfold val_main_v22
  rw [Host.reduce_eq_fold_single FloatOps.maximumf _ _ reducesTo_S2x16x2048x2048_S2x16x2048_d3 (by decide) h_S_]
  refine (max_negInf _).trans ?_
  refine congrArg (fun f => Finset.fold max (Ideal.ofBits .f32 0xFF800000#32) f (Finset.univ : Finset (Fin 2048))) (funext fun t => ?_)
  show val_main_v21 (F := Ideal) x0 x1 x3 x4 x5 x6 x7 (Shape.Reduces.lift _ (ix3 b h s) t) = _
  rw [lift_key, val_main_v21_at]
  rfl

/-- The reference's exponential at (b, h, s, t). -/
theorem val_main_v28_at (x0 x1 : (⟨S2x2048x1024, .f32⟩ : BufTy).Contents (Elt Ideal)) (x3 : (⟨S2x16x2048x2048, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (b : Fin 2) (h : Fin 16) (s t : Fin 2048) :
    val_main_v28 (F := Ideal) x0 x1 x3 x4 x5 x6 x7 (ix4 b h s t) = expAt (val_main_v3 (F := Ideal) x0 x4 x5) (val_main_v9 (F := Ideal) x1 x6 x7) x3 b h s t := by
  rw [val_main_v28_apply, val_main_v27_apply, val_main_v26_apply, val_main_v25_apply]
  have e : idx_main_v25 (idx_main_v26 (ix4 b h s t)) = ix3 b h s := by idx_cases3
  rw [e, val_main_v21_at, val_main_v24_at]
  rfl

/-- The reference's row sum at (b, h, s). -/
theorem val_main_v29_at (x0 x1 : (⟨S2x2048x1024, .f32⟩ : BufTy).Contents (Elt Ideal)) (x3 : (⟨S2x16x2048x2048, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (b : Fin 2) (h : Fin 16) (s : Fin 2048) :
    val_main_v29 (F := Ideal) x0 x1 x3 x4 x5 x6 x7 (ix3 b h s) = rowSum (val_main_v3 (F := Ideal) x0 x4 x5) (val_main_v9 (F := Ideal) x1 x6 x7) x3 b h s := by
  rw [val_main_v29_apply, val_main_cst_2_apply, Ideal.ofBits_def, Ideal.ofBits_zero_f32, zero_add]
  refine Finset.sum_congr rfl fun t _ => ?_
  have e : idx_main_v29 (ix3 b h s) t = ix4 b h s t := by idx_cases4
  rw [e, val_main_v28_at]

/-- The reference's attention weights are the specification's. -/
theorem val_main_v32_eq_attnArr (x0 x1 : (⟨S2x2048x1024, .f32⟩ : BufTy).Contents (Elt Ideal)) (x3 : (⟨S2x16x2048x2048, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) :
    val_main_v32 (F := Ideal) x0 x1 x3 x4 x5 x6 x7 = attnArr (val_main_v3 (F := Ideal) x0 x4 x5) (val_main_v9 (F := Ideal) x1 x6 x7) x3 := by
  funext i
  obtain ⟨b, h, s, t, rfl⟩ : ∃ (b : Fin 2) (h : Fin 16) (s t : Fin 2048), i = ix4 b h s t :=
    ⟨i 0, i 1, i 2, i 3, eq_ix4 i⟩
  rw [val_main_v32_apply, val_main_v31_apply, val_main_v30_apply]
  have e : idx_main_v30 (idx_main_v31 (ix4 b h s t)) = ix3 b h s := by idx_cases3
  rw [e, val_main_v28_at, val_main_v29_at]
  rfl

end Cert.RefAttn

end
-- ==== Proof.RefOut.lean ====
/-
  The reference's contexts and its output, read as the specification's.

  The weights contract their key axis against the re-laid values; the result [2, 16, 2048, 64] is transposed to
  [2, 2048, 16, 64] and flattened to [2, 2048, 1024], so entry (b, s, h·64 + d) of the flattened array is the context
  of query s in head h at head coordinate d. The output is one more projection, of the contexts.
-/
import proofs.«127580_j11682311045245_2_alg».proof.Proof.Gen.ReferenceIdeal.Read
import proofs.«127580_j11682311045245_2_alg».proof.Proof.Spec
import proofs.«127580_j11682311045245_2_alg».proof.Proof.RefProj
import proofs.«127580_j11682311045245_2_alg».proof.Proof.RefAttn

noncomputable section

namespace Cert.RefAttn

open Cert.ReferenceIdeal Cert.ReferenceIdeal.Gen Cert.ReferenceIdeal.Read Idealize.ShloMosaic Idealize.ShloMosaic.ValueIdx Cert.Attn

/-! ## The row-major position of (b, s, h·64 + d) in [2, 2048, 1024], split along [2, 2048, 16, 64] -/

theorem join_batch (b : Fin 2) (s : Fin 2048) (h : Fin 16) (d : Fin 64) :
    ((b.val * 2048 + s.val) * 1024 + (col h d).val) / 2097152 = b.val := by
  have := b.isLt; have := s.isLt; have := h.isLt; have := d.isLt; rw [col_val]; omega

theorem join_pos (b : Fin 2) (s : Fin 2048) (h : Fin 16) (d : Fin 64) :
    ((b.val * 2048 + s.val) * 1024 + (col h d).val) / 1024 % 2048 = s.val := by
  have := b.isLt; have := s.isLt; have := h.isLt; have := d.isLt; rw [col_val]; omega

theorem join_head (b : Fin 2) (s : Fin 2048) (h : Fin 16) (d : Fin 64) :
    ((b.val * 2048 + s.val) * 1024 + (col h d).val) / 64 % 16 = h.val := by
  have := b.isLt; have := s.isLt; have := h.isLt; have := d.isLt; rw [col_val]; omega

theorem join_dim (b : Fin 2) (s : Fin 2048) (h : Fin 16) (d : Fin 64) :
    ((b.val * 2048 + s.val) * 1024 + (col h d).val) % 64 = d.val := by
  have := b.isLt; have := s.isLt; have := h.isLt; have := d.isLt; rw [col_val]; omega

/-- Entry (b, h, t, d) of the re-laid values is entry (b, t, h·64 + d) of the projection. -/
theorem val_main_v17_at (x2 : (⟨S2x2048x1024, .f32⟩ : BufTy).Contents (Elt Ideal)) (x8 : (⟨S1024x1024, .f32⟩ : BufTy).Contents (Elt Ideal)) (x9 : (⟨S1024, .f32⟩ : BufTy).Contents (Elt Ideal))
    (b : Fin 2) (h : Fin 16) (t : Fin 2048) (d : Fin 64) :
    val_main_v17 (F := Ideal) x2 x8 x9 (ix4 b h t d) = val_main_v15 (F := Ideal) x2 x8 x9 (ix3 b t (col h d)) := by
  rw [val_main_v17_apply, val_main_v16_apply]
  exact congrArg _ (funext fun a => Fin.ext (by
    match a with
    | ⟨0, _⟩ => exact split_batch b t h d
    | ⟨1, _⟩ => exact split_pos b t h d
    | ⟨2, _⟩ => exact split_col b t h d))

/-- The reference's contexts, flattened back to [2, 2048, 1024], are the specification's. -/
theorem val_main_v35_eq_ctxArr (x0 x1 x2 : (⟨S2x2048x1024, .f32⟩ : BufTy).Contents (Elt Ideal)) (x3 : (⟨S2x16x2048x2048, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) :
    val_main_v35 (F := Ideal) x0 x1 x2 x3 x4 x5 x6 x7 x8 x9 = ctxArr (val_main_v3 (F := Ideal) x0 x4 x5) (val_main_v9 (F := Ideal) x1 x6 x7) (val_main_v15 (F := Ideal) x2 x8 x9) x3 := by
  funext i
  obtain ⟨b, s, e, rfl⟩ : ∃ (b : Fin 2) (s : Fin 2048) (e : Fin 1024), i = ix3 b s e := ⟨i 0, i 1, i 2, eq_ix3 i⟩
  obtain ⟨h, d, rfl⟩ : ∃ (h : Fin 16) (d : Fin 64), e = col h d := ⟨headOf e, dimOf e, (col_headOf_dimOf e).symm⟩
  rw [ctxArr_apply, val_main_v35_apply, val_main_v34_apply, val_main_v33_apply, val_main_v32_eq_attnArr]
  have e35 : idx_main_v34 (idx_main_v35 (ix3 b s (col h d))) = ix4 b h s d := funext fun a => Fin.ext (by
    match a with
    | ⟨0, _⟩ => exact join_batch b s h d
    | ⟨1, _⟩ => exact join_head b s h d
    | ⟨2, _⟩ => exact join_pos b s h d
    | ⟨3, _⟩ => exact join_dim b s h d)
  rw [e35]
  have el : ∀ t : Fin 2048, lidx_main_v33 (ix4 b h s d) t = ix4 b h s t := fun t => by idx_cases4
  have er : ∀ t : Fin 2048, ridx_main_v33 (ix4 b h s d) t = ix4 b h t d := fun t => by idx_cases4
  unfold ctxAt
  exact Finset.sum_congr rfl fun t _ => by rw [el t, er t, attnArr_apply, val_main_v17_at]

/-- The reference's output is the specification's projection of the contexts. -/
theorem val_main_v39_eq_projArr (x0 x1 x2 : (⟨S2x2048x1024, .f32⟩ : BufTy).Contents (Elt Ideal)) (x3 : (⟨S2x16x2048x2048, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal)) :
    val_main_v39 (F := Ideal) x0 x1 x2 x3 x4 x5 x6 x7 x8 x9 x10 x11 = projArr (val_main_v35 (F := Ideal) x0 x1 x2 x3 x4 x5 x6 x7 x8 x9) x10 x11 := by
  refine eq_projArr (val_main_v35 (F := Ideal) x0 x1 x2 x3 x4 x5 x6 x7 x8 x9) x10 x11 _ fun b s e => ?_
  rw [val_main_v39_apply, val_main_v36_apply, val_main_v38_apply, val_main_v37_apply]
  have el : ∀ k : Fin 1024, lidx_main_v36 (ix3 b s e) k = ix3 b s k := fun k => by idx_cases3
  have er : ∀ k : Fin 1024, ridx_main_v36 (ix3 b s e) k = ix2 e k := fun k => by idx_cases2
  have eb : idx_main_v37 (idx_main_v38 (ix3 b s e)) = ix1 e := by idx_cases1
  rw [eb]
  exact congrArg (· + x11 (ix1 e)) (Finset.sum_congr rfl fun k _ => by rw [el k, er k])

end Cert.RefAttn

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.LibSumsAtIndex.lean ====
/-
  Reductions and re-laid arrays read at an index given by coordinates, at the ideal values.

  A sum along the columns of an [a, b] array is, at row r, the sum over d of the entries (r, d); a sum along its rows is,
  at column j, the sum over r of the entries (r, j) (for the vector unit's reduction, which starts from nothing, and for
  the host's, which starts from an initial value). An [a, 1] column read as a vector of length a, and an [a, 1, b] array
  read as an [a, b] matrix, keep every element at its row-major position. A sum over the indices of a vector is the sum
  over its coordinate.
-/
import Idealize.ShloMosaic.Lib.Pipeline.Value
import Idealize.ShloMosaic.Lib.ValueIdx
import Idealize.ShloMosaic.PureOps.Ideal.Laws

noncomputable section

open scoped BigOperators

namespace Idealize.ShloMosaic.SumsAtIndex

open Idealize.ShloMosaic Idealize.ShloMosaic.ValueIdx

/-- The vector unit's sum along axis 1 of an [a, b] array, at row r: the sum of row r. -/
theorem rowsum_apply {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ) (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

/-- The vector unit's sum along axis 0 of an [a, b] array, at column j: the sum of column j. -/
theorem colsum_apply {a b : ℕ} (src : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ) (j : Fin b) :
    multiReduction .add [0] ⟨1, ![b]⟩ src acc h hφ hacc (ix1 j) = ∑ r : Fin a, src (ix2 r j) := by
  refine (Ideal.multiReduction_add_single src acc h hφ hacc (ix1 j)).trans ?_
  refine Finset.sum_congr rfl fun r _ => congrArg src (funext fun ax => Fin.ext ?_)
  match ax with
  | ⟨0, _⟩ => rfl
  | ⟨1, _⟩ => rfl

/-- The host's sum along axis 0 of an [a, b] array from an initial value, at column j. -/
theorem hostColsum_apply {a b : ℕ} (x : (⟨2, ![a, b]⟩ : Shape).Idx → EReal) (init : EReal)
    (h' : (⟨2, ![a, b]⟩ : Shape).ReducesTo [0] ⟨1, ![b]⟩) (h : (⟨2, ![a, b]⟩ : Shape).Reduces [0] ⟨1, ![b]⟩) (j : Fin b) :
    Ideal.hostReduceAdd h' x init (ix1 j) = init + ∑ r : Fin a, x (ix2 r j) := by
  refine (Ideal.hostReduceAdd_single h' h x init (ix1 j)).trans ?_
  refine congrArg (init + ·) (Finset.sum_congr rfl fun r _ => congrArg x (funext fun ax => Fin.ext ?_))
  match ax with
  | ⟨0, _⟩ => rfl
  | ⟨1, _⟩ => rfl

/-- A sum over the indices of a vector of length a is the sum over its coordinate. -/
theorem sum_idx1 {M : Type*} [AddCommMonoid M] {a : ℕ} (f : (⟨1, ![a]⟩ : Shape).Idx → M) : ∑ i, f i = ∑ k : Fin a, f (ix1 k) := by
  let e : Fin a ≃ (⟨1, ![a]⟩ : Shape).Idx :=
    { toFun := fun k => ix1 k, invFun := fun i => i 0, left_inv := fun _ => rfl, right_inv := fun i => (eq_ix1 i).symm }
  exact (Equiv.sum_comp e f).symm

/-- The host's sum of a whole vector of length a from an initial value. -/
theorem hostTotal_apply {a : ℕ} (x : (⟨1, ![a]⟩ : Shape).Idx → EReal) (init : EReal)
    (h' : (⟨1, ![a]⟩ : Shape).ReducesTo [0] ⟨0, ![]⟩) (i : (⟨0, ![]⟩ : Shape).Idx) :
    Ideal.hostReduceAdd h' x init i = init + ∑ k : Fin a, x (ix1 k) := by
  rw [Ideal.hostReduceAdd_total h' (fun b => b.elim0) x init i, sum_idx1]

/-- An [a, 1] column read as a vector: entry i is the column's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a, 1, b] array read as an [a, b] matrix: entry (i, j) is the array's entry (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.SumsAtIndex

end
-- ==== Proof.LibSoftmaxStages.lean ====
/-
  The stages of a row softmax, and two re-laid arrays, read at an index given by coordinates, at the ideal values.

  For an [a, b] array S: the maximum along each row is the fold of max from the accumulator's value over the row;
  a row reduction kept as an [a, 1] column and spread back along the rows reads, at (r, t), the reduction of row r;
  so the exponential of S below its row maxima is, at (r, t), exp (S (r, t) − max over row r), and an array divided
  by its row sums is, at (r, t), its entry over the sum of row r.  An [a, b] matrix viewed with two leading unit
  axes, and back, keeps every element at its row-major position.  Nothing here names a particular program.
-/
import Idealize.ShloMosaic.Lib.Pipeline.Value
import Idealize.ShloMosaic.Lib.ValueIdx
import Idealize.ShloMosaic.PureOps.Ideal.Laws
import proofs.«127580_j11682311045245_2_alg».proof.Proof.LibKeptColumn
import proofs.«127580_j11682311045245_2_alg».proof.Proof.LibSumsAtIndex

noncomputable section

open scoped BigOperators

namespace Idealize.ShloMosaic.SoftmaxStages

open Idealize.ShloMosaic Idealize.ShloMosaic.ValueIdx

/-- The vector unit's maximum along axis 1 of an [a, b] array, at row r: the fold of max from the accumulator's
    value over the entries of row r. -/
theorem rowmax_apply {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  have hf : (src ∘ h.lift (ix1 r)) = fun d : Fin b => src (ix2 r d) :=
    funext fun d => congrArg src (funext fun ax => Fin.ext (by
      match ax with
      | ⟨0, _⟩ => rfl
      | ⟨1, _⟩ => rfl))
  exact congrArg (fun f => Finset.fold max (Ideal.ofBits .f32 acc) f (Finset.univ : Finset (Fin b))) hf

/-- A vector of length a kept as an [a, 1] column and spread along the rows of an [a, b] array reads, at (r, t),
    the vector's entry r. -/
theorem kept_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (r : Fin a) (t : Fin b) :
    broadcastTo ⟨2, ![a, b]⟩ (shapeCast ⟨2, ![a, 1]⟩ v hc) hb (ix2 r t) = v (ix1 r) :=
  (KeptColumn.broadcastTo_a1_ab_apply _ hb r t).trans (KeptColumn.shapeCast_a_a1_apply v hc r 0)

/-- The exponentials of an [a, b] array below its row maxima, at (r, t). -/
theorem exp_sub_rowmax_apply {a b : ℕ} (S : FVec Ideal ⟨2, ![a, b]⟩ .f32) (acc : BitVec FTy.f32.bits)
    (hr : (⟨2, ![a, b]⟩ : Shape).Reduces [1] ⟨1, ![a]⟩) (hφ : FKind.Formats .f32)
    (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (t : Fin b) :
    exp (subf S (broadcastTo ⟨2, ![a, b]⟩ (shapeCast ⟨2, ![a, 1]⟩
        (multiReduction .maximumf [1] ⟨1, ![a]⟩ S acc hr hφ hacc) hc) hb)) (ix2 r t)
      = Ideal.exp (S (ix2 r t) - (Finset.univ : Finset (Fin b)).fold max (Ideal.ofBits .f32 acc) (fun d => S (ix2 r d))) :=
  congrArg (fun m => Ideal.exp (S (ix2 r t) - m))
    ((kept_apply _ hc hb r t).trans (rowmax_apply S acc hr hφ hacc r))

/-- An [a, b] array divided by its row sums, at (r, t). -/
theorem div_rowsum_apply {a b : ℕ} (E : FVec Ideal ⟨2, ![a, b]⟩ .f32) (acc : BitVec FTy.f32.bits)
    (hr : (⟨2, ![a, b]⟩ : Shape).Reduces [1] ⟨1, ![a]⟩) (hφ : FKind.Formats .f32)
    (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (t : Fin b) :
    divf E (broadcastTo ⟨2, ![a, b]⟩ (shapeCast ⟨2, ![a, 1]⟩
        (multiReduction .add [1] ⟨1, ![a]⟩ E acc hr hφ hacc) hc) hb) (ix2 r t)
      = Ideal.div (E (ix2 r t)) (∑ d : Fin b, E (ix2 r d)) :=
  congrArg (fun m => Ideal.div (E (ix2 r t)) m)
    ((kept_apply _ hc hb r t).trans (SumsAtIndex.rowsum_apply E acc hr hφ hacc r))

/-- A [1, 1, a, b] array read as an [a, b] matrix: entry (i, j) is the array's entry (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix viewed as [1, 1, a, b] reads, at (u, u', i, j), the matrix's entry (i, j). -/
theorem shapeCast_ab_11ab_apply {α : Type} {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_two, Shape.rowMajor_val_four]
    show i.val * b + j.val = ((u.val * 1 + u'.val) * a + i.val) * b + j.val
    rw [hu, hu']
    simp only [Nat.zero_mul, Nat.zero_add])

end Idealize.ShloMosaic.SoftmaxStages

end
-- ==== Proof.AttnPayloadScores.lean ====
/-
  The attention body's scores, read at an index.

  A grid point holds the 128 model columns of a pair of heads: head o of the pair (o = 0, 1) owns columns
  o·64 … o·64 + 63.  From a [1, 512, 128] block of queries, a [1, 2048, 128] block of keys and a [1, 1, 512, 2048]
  plane of additive biases the body forms, per head, the [512, 2048] matrix of scaled scores
      S[r, t] = (∑ d, q[0, r, o·64 + d] · k[0, t, o·64 + d]) · (1/8) + bias[0, 0, r, t]
  (a product of the query slice with the transposed key slice into a zero accumulator, times the 1/8 word, plus
  the plane).  For head 1 the body keeps S; for head 0 it goes on to exp (S − row maximum).  The roundings to
  bf16 on the way into the products are the identity at the ideal values.
-/
import proofs.«127580_j11682311045245_2_alg».proof.Proof.Gen.KernelIdeal.Frame
import proofs.«127580_j11682311045245_2_alg».proof.Proof.LibRowDot
import proofs.«127580_j11682311045245_2_alg».proof.Proof.LibSoftmaxStages
import Idealize.ShloMosaic.Lib.ValueLayout

set_option maxRecDepth 16384

noncomputable section

open scoped BigOperators

namespace Cert.KernelIdeal.AttnRegion

open Idealize.ShloMosaic Idealize.ShloMosaic.ValueIdx Cert.KernelIdeal Cert.KernelIdeal.Gen

/-- Column o·64 + d of a pair of heads: coordinate d of the pair's head o. -/
def pcol (o : Fin 2) (d : Fin 64) : Fin 128 := ⟨o.val * 64 + d.val, by have := o.isLt; have := d.isLt; omega⟩

theorem pcol_val (o : Fin 2) (d : Fin 64) : (pcol o d).val = o.val * 64 + d.val := rfl

/-- The scaled score of query row r against key row t in head o of the pair, plus the additive plane's entry. -/
def blkScore (x0 : Vec Ideal S1x512x128 .f32) (x1 : Vec Ideal S1x2048x128 .f32) (p : Vec Ideal S1x1x512x2048 .f32)
    (o : Fin 2) (r : Fin 512) (t : Fin 2048) : EReal :=
  (∑ d : Fin 64, x0 (ix3 0 r (pcol o d)) * x1 (ix3 0 t (pcol o d))) * Ideal.ofBits .f32 0x3E000000#32 + p (ix4 0 0 r t)

/-- The largest score of row r in head o: the fold of max from −∞ over the keys. -/
def blkRowMax (x0 : Vec Ideal S1x512x128 .f32) (x1 : Vec Ideal S1x2048x128 .f32) (p : Vec Ideal S1x1x512x2048 .f32)
    (o : Fin 2) (r : Fin 512) : EReal :=
  (Finset.univ : Finset (Fin 2048)).fold max (Ideal.ofBits .f32 0xFF800000#32) (fun t => blkScore x0 x1 p o r t)

/-- The query block read as a [512, 128] matrix. -/
theorem pay6_apply (x0 : Vec Ideal S1x512x128 .f32) (r : Fin 512) (e : Fin 128) :
    k3_pay6 x0 (ix2 r e) = x0 (ix3 0 r e) := by
  unfold k3_pay6
  exact shapeCast_1ab_ab_apply x0 _ r e

/-- The key block read as a [2048, 128] matrix. -/
theorem pay7_apply (x1 : Vec Ideal S1x2048x128 .f32) (t : Fin 2048) (e : Fin 128) :
    k3_pay7 x1 (ix2 t e) = x1 (ix3 0 t e) := by
  unfold k3_pay7
  exact shapeCast_1ab_ab_apply x1 _ t e

/-- The product of a [512, 64] slice with the transpose of a [2048, 64] slice, scaled by the 1/8 word, plus a
    [512, 2048] matrix, at (r, t). -/
theorem scaled_scores_apply (A : FVec Ideal S512x64 .bf16) (B : FVec Ideal S2048x64 .bf16) (C : FVec Ideal S512x2048 .f32)
    (r : Fin 512) (t : Fin 2048) :
    addf (mulf (matmul dot_S512x64_S2048x64_S512x2048_1_1_0_0_n_n none A B (constant S512x2048 .f32 0x00000000#32))
        (broadcast S512x2048 (Scalar.ofBits .f32 0x3E000000#32))) C (ix2 r t)
      = (∑ d : Fin 64, A (ix2 r d) * B (ix2 t d)) * Ideal.ofBits .f32 0x3E000000#32 + C (ix2 r t) :=
  congrArg (fun m => m * Ideal.ofBits .f32 0x3E000000#32 + C (ix2 r t))
    (RowDot.matmul_zero_apply dot_S512x64_S2048x64_S512x2048_1_1_0_0_n_n rfl rfl rfl rfl rfl rfl none A B r t)

/-- Head 1's scores (the body keeps them for its softmax), at (r, t). -/
theorem pay11_apply (x0 : Vec Ideal S1x512x128 .f32) (x1 : Vec Ideal S1x2048x128 .f32) (p : Vec Ideal S1x1x512x2048 .f32)
    (r : Fin 512) (t : Fin 2048) :
    k3_pay11 x0 x1 p (ix2 r t) = blkScore x0 x1 p 1 r t := by
  unfold k3_pay11
  refine (scaled_scores_apply _ _ _ r t).trans ?_
  unfold blkScore
  refine congrArg₂ (fun s c => s * Ideal.ofBits .f32 0x3E000000#32 + c) (Finset.sum_congr rfl fun d _ => ?_)
    (SoftmaxStages.shapeCast_11ab_ab_apply p _ r t)
  refine congrArg₂ (· * ·) ?_ ?_
  · exact (slice2_axis1_apply 64 (k3_pay6 x0) slices_S512x128_o0_64_S512x64 r d (pcol 1 d) (by rw [pcol_val]; rfl)).trans (pay6_apply x0 r _)
  · exact (slice2_axis1_apply 64 (k3_pay7 x1) slices_S2048x128_o0_64_S2048x64 t d (pcol 1 d) (by rw [pcol_val]; rfl)).trans (pay7_apply x1 t _)

/-- Head 0's scores, as the body forms them before its softmax, at (r, t). -/
theorem scores0_apply (x0 : Vec Ideal S1x512x128 .f32) (x1 : Vec Ideal S1x2048x128 .f32) (p : Vec Ideal S1x1x512x2048 .f32)
    (r : Fin 512) (t : Fin 2048) :
    addf (mulf (matmul dot_S512x64_S2048x64_S512x2048_1_1_0_0_n_n none
          (truncf .bf16 (extractStridedSlice S512x64 ![0, 0] (k3_pay6 x0) slices_S512x128_o0_0_S512x64) bitsLt_bf16_f32)
          (truncf .bf16 (extractStridedSlice S2048x64 ![0, 0] (k3_pay7 x1) slices_S2048x128_o0_0_S2048x64) bitsLt_bf16_f32)
          (constant S512x2048 .f32 0x00000000#32))
        (broadcast S512x2048 (Scalar.ofBits .f32 0x3E000000#32)))
      (shapeCast S512x2048 p shapeCasts_S1x1x512x2048_S512x2048) (ix2 r t) = blkScore x0 x1 p 0 r t := by
  refine (scaled_scores_apply _ _ _ r t).trans ?_
  unfold blkScore
  refine congrArg₂ (fun s c => s * Ideal.ofBits .f32 0x3E000000#32 + c) (Finset.sum_congr rfl fun d _ => ?_)
    (SoftmaxStages.shapeCast_11ab_ab_apply p _ r t)
  refine congrArg₂ (· * ·) ?_ ?_
  · exact (slice2_axis1_apply 0 (k3_pay6 x0) slices_S512x128_o0_0_S512x64 r d (pcol 0 d) (by rw [pcol_val]; show 0 * 64 + d.val = 0 + d.val; omega)).trans (pay6_apply x0 r _)
  · exact (slice2_axis1_apply 0 (k3_pay7 x1) slices_S2048x128_o0_0_S2048x64 t d (pcol 0 d) (by rw [pcol_val]; show 0 * 64 + d.val = 0 + d.val; omega)).trans (pay7_apply x1 t _)

/-- Head 0's exponentials of the scores below their row maxima, at (r, t). -/
theorem pay12_apply (x0 : Vec Ideal S1x512x128 .f32) (x1 : Vec Ideal S1x2048x128 .f32) (p : Vec Ideal S1x1x512x2048 .f32)
    (r : Fin 512) (t : Fin 2048) :
    k3_pay12 x0 x1 p (ix2 r t) = Ideal.exp (blkScore x0 x1 p 0 r t - blkRowMax x0 x1 p 0 r) := by
  unfold k3_pay12
  refine (SoftmaxStages.exp_sub_rowmax_apply _ 0xFF800000#32 reduces_S512x2048_S512 (.inl rfl) rfl shapeCasts_S512_S512x1
    broadcasts_S512x1_S512x2048 r t).trans ?_
  unfold blkRowMax
  refine congrArg₂ (fun s m => Ideal.exp (s - m)) (scores0_apply x0 x1 p r t) ?_
  exact congrArg (fun f => Finset.fold max (Ideal.ofBits .f32 0xFF800000#32) f (Finset.univ : Finset (Fin 2048)))
    (funext fun t' => scores0_apply x0 x1 p r t')

end Cert.KernelIdeal.AttnRegion

end
-- ==== Proof.AttnPayloadSoftmax.lean ====
/-
  The attention body's softmax, read at an index.

  From a [512, 2048] matrix E of exponentials the body forms E[r, t] / ∑ t', E[r, t'] (head 0, whose exponentials were
  taken earlier); from a [512, 2048] matrix S of scores it forms the whole row softmax
  exp (S[r, t] − max over row r) / ∑ t', exp (S[r, t'] − max over row r) (head 1).  Each is stored as one plane of
  the [1, 2, 512, 2048] block of weights after a cast to [1, 1, 512, 2048].  In terms of the loaded blocks both
  heads' weights are the same function of the head's number o.
-/
import proofs.«127580_j11682311045245_2_alg».proof.Proof.AttnPayloadScores

set_option maxRecDepth 16384

noncomputable section

open scoped BigOperators

namespace Cert.KernelIdeal.AttnRegion

open Idealize.ShloMosaic Idealize.ShloMosaic.ValueIdx Cert.KernelIdeal Cert.KernelIdeal.Gen

/-- The exponential of a score below its row's maximum. -/
def blkExp (x0 : Vec Ideal S1x512x128 .f32) (x1 : Vec Ideal S1x2048x128 .f32) (p : Vec Ideal S1x1x512x2048 .f32)
    (o : Fin 2) (r : Fin 512) (t : Fin 2048) : EReal :=
  Ideal.exp (blkScore x0 x1 p o r t - blkRowMax x0 x1 p o r)

/-- The sum of a row's exponentials. -/
def blkRowSum (x0 : Vec Ideal S1x512x128 .f32) (x1 : Vec Ideal S1x2048x128 .f32) (p : Vec Ideal S1x1x512x2048 .f32)
    (o : Fin 2) (r : Fin 512) : EReal :=
  ∑ t : Fin 2048, blkExp x0 x1 p o r t

/-- The attention weight of query row r on key row t in head o of the pair. -/
def blkAttn (x0 : Vec Ideal S1x512x128 .f32) (x1 : Vec Ideal S1x2048x128 .f32) (p : Vec Ideal S1x1x512x2048 .f32)
    (o : Fin 2) (r : Fin 512) (t : Fin 2048) : EReal :=
  Ideal.div (blkExp x0 x1 p o r t) (blkRowSum x0 x1 p o r)

/-- A matrix of exponentials divided by its row sums, at (r, t). -/
theorem pay1_apply (E : FVec Ideal S512x2048 .f32) (r : Fin 512) (t : Fin 2048) :
    k3_pay1 E (ix2 r t) = Ideal.div (E (ix2 r t)) (∑ d : Fin 2048, E (ix2 r d)) := by
  unfold k3_pay1
  exact SoftmaxStages.div_rowsum_apply E 0x00000000#32 reduces_S512x2048_S512 (.inl rfl) rfl shapeCasts_S512_S512x1
    broadcasts_S512x1_S512x2048 r t

/-- The row softmax of a matrix of scores, at (r, t). -/
theorem pay2_apply (S : FVec Ideal S512x2048 .f32) (r : Fin 512) (t : Fin 2048) :
    k3_pay2 S (ix2 r t)
      = Ideal.div (Ideal.exp (S (ix2 r t) - (Finset.univ : Finset (Fin 2048)).fold max (Ideal.ofBits .f32 0xFF800000#32) (fun d => S (ix2 r d))))
          (∑ t' : Fin 2048, Ideal.exp (S (ix2 r t') - (Finset.univ : Finset (Fin 2048)).fold max (Ideal.ofBits .f32 0xFF800000#32) (fun d => S (ix2 r d)))) := by
  unfold k3_pay2
  refine (SoftmaxStages.div_rowsum_apply _ 0x00000000#32 reduces_S512x2048_S512 (.inl rfl) rfl shapeCasts_S512_S512x1
    broadcasts_S512x1_S512x2048 r t).trans ?_
  exact congrArg₂ Ideal.div
    (SoftmaxStages.exp_sub_rowmax_apply S 0xFF800000#32 reduces_S512x2048_S512 (.inl rfl) rfl shapeCasts_S512_S512x1
      broadcasts_S512x1_S512x2048 r t)
    (Finset.sum_congr rfl fun t' _ =>
      SoftmaxStages.exp_sub_rowmax_apply S 0xFF800000#32 reduces_S512x2048_S512 (.inl rfl) rfl shapeCasts_S512_S512x1
        broadcasts_S512x1_S512x2048 r t')

/-- Head 0's weights, at (r, t). -/
theorem weights0_apply (x0 : Vec Ideal S1x512x128 .f32) (x1 : Vec Ideal S1x2048x128 .f32) (p : Vec Ideal S1x1x512x2048 .f32)
    (r : Fin 512) (t : Fin 2048) :
    k3_pay1 (k3_pay12 x0 x1 p) (ix2 r t) = blkAttn x0 x1 p 0 r t := by
  refine (pay1_apply _ r t).trans ?_
  unfold blkAttn blkRowSum blkExp
  exact congrArg₂ Ideal.div (pay12_apply x0 x1 p r t) (Finset.sum_congr rfl fun t' _ => pay12_apply x0 x1 p r t')

/-- Head 1's weights, at (r, t). -/
theorem weights1_apply (x0 : Vec Ideal S1x512x128 .f32) (x1 : Vec Ideal S1x2048x128 .f32) (p : Vec Ideal S1x1x512x2048 .f32)
    (r : Fin 512) (t : Fin 2048) :
    k3_pay2 (k3_pay11 x0 x1 p) (ix2 r t) = blkAttn x0 x1 p 1 r t := by
  refine (pay2_apply _ r t).trans ?_
  have hS : ∀ d : Fin 2048, k3_pay11 x0 x1 p (ix2 r d) = blkScore x0 x1 p 1 r d := fun d => pay11_apply x0 x1 p r d
  have hM : (Finset.univ : Finset (Fin 2048)).fold max (Ideal.ofBits .f32 0xFF800000#32) (fun d => k3_pay11 x0 x1 p (ix2 r d))
      = blkRowMax x0 x1 p 1 r :=
    congrArg (fun f => Finset.fold max (Ideal.ofBits .f32 0xFF800000#32) f (Finset.univ : Finset (Fin 2048))) (funext hS)
  unfold blkAttn blkRowSum blkExp
  exact congrArg₂ Ideal.div (congrArg₂ (fun s m => Ideal.exp (s - m)) (hS t) hM)
    (Finset.sum_congr rfl fun t' _ => congrArg₂ (fun s m => Ideal.exp (s - m)) (hS t') hM)

/-- Head 0's plane of weights as stored, at (0, 0, r, t). -/
theorem pay3_apply (E : FVec Ideal S512x2048 .f32) (r : Fin 512) (t : Fin 2048) :
    k3_pay3 E (ix4 0 0 r t) = k3_pay1 E (ix2 r t) := by
  unfold k3_pay3
  exact SoftmaxStages.shapeCast_ab_11ab_apply (k3_pay1 E) _ 0 0 r t

/-- Head 1's plane of weights as stored, at (0, 0, r, t). -/
theorem pay4_apply (S : FVec Ideal S512x2048 .f32) (r : Fin 512) (t : Fin 2048) :
    k3_pay4 S (ix4 0 0 r t) = k3_pay2 S (ix2 r t) := by
  unfold k3_pay4
  exact SoftmaxStages.shapeCast_ab_11ab_apply (k3_pay2 S) _ 0 0 r t

end Cert.KernelIdeal.AttnRegion

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.AttnPayloadContext.lean ====
/-
  The attention body's contexts, read at an index.

  The [1, 2048, 128] block of values is read as a matrix and cut into the two heads' [2048, 64] slices; each head's
  [512, 2048] weights are multiplied with its slice into a zero accumulator, C_o[r, d] = ∑ t, A_o[r, t] · v[t, o·64 + d],
  and the two [512, 64] results are set side by side along the columns: column o·64 + d of the stored [1, 512, 128]
  block is head o's coordinate d.
-/
import proofs.«127580_j11682311045245_2_alg».proof.Proof.AttnPayloadSoftmax
import proofs.«127580_j11682311045245_2_alg».proof.Proof.LibPlainMatmul

set_option maxRecDepth 16384

noncomputable section

open scoped BigOperators

namespace Cert.KernelIdeal.AttnRegion

open Idealize.ShloMosaic Idealize.ShloMosaic.ValueIdx Cert.KernelIdeal Cert.KernelIdeal.Gen

/-- The value block read as a [2048, 128] matrix. -/
theorem pay8_apply (x2 : Vec Ideal S1x2048x128 .f32) (t : Fin 2048) (e : Fin 128) :
    k3_pay8 x2 (ix2 t e) = x2 (ix3 0 t e) := by
  unfold k3_pay8
  exact shapeCast_1ab_ab_apply x2 _ t e

/-- Head 0's slice of the values, at (t, d). -/
theorem pay9_apply (x2 : Vec Ideal S1x2048x128 .f32) (t : Fin 2048) (d : Fin 64) :
    k3_pay9 x2 (ix2 t d) = x2 (ix3 0 t (pcol 0 d)) := by
  unfold k3_pay9
  exact (slice2_axis1_apply 0 (k3_pay8 x2) slices_S2048x128_o0_0_S2048x64 t d (pcol 0 d)
    (by rw [pcol_val]; show 0 * 64 + d.val = 0 + d.val; omega)).trans (pay8_apply x2 t _)

/-- Head 1's slice of the values, at (t, d). -/
theorem pay10_apply (x2 : Vec Ideal S1x2048x128 .f32) (t : Fin 2048) (d : Fin 64) :
    k3_pay10 x2 (ix2 t d) = x2 (ix3 0 t (pcol 1 d)) := by
  unfold k3_pay10
  exact (slice2_axis1_apply 64 (k3_pay8 x2) slices_S2048x128_o0_64_S2048x64 t d (pcol 1 d)
    (by rw [pcol_val]; rfl)).trans (pay8_apply x2 t _)

/-- The stored block at a column of head 0: head 0's weights against its slice of the values. -/
theorem pay5_apply_head0 (v15 v17 : FVec Ideal S2048x64 .bf16) (S1 E0 : FVec Ideal S512x2048 .f32) (r : Fin 512) (d : Fin 64) :
    k3_pay5 v15 v17 S1 E0 (ix3 0 r (pcol 0 d)) = ∑ t : Fin 2048, k3_pay1 E0 (ix2 r t) * v15 (ix2 t d) := by
  unfold k3_pay5
  refine (shapeCast_ab_1ab_apply _ shapeCasts_S512x128_S1x512x128 0 r (pcol 0 d)).trans ?_
  refine (concatenate_pair_apply_left _ _ _ concatenates_S512x64_S512x64_S512x128_d1 (ix2 r (pcol 0 d)) rfl (ix2 r d)
    (fun b => by
      match b with
      | ⟨0, _⟩ => rfl
      | ⟨1, _⟩ => show d.val = 0 * 64 + d.val; omega)).trans ?_
  exact PlainMatmul.matmul_zero_apply dot_S512x2048_S2048x64_S512x64_1_0_0_1_n_n rfl rfl rfl rfl rfl rfl none _ v15 r d

/-- The stored block at a column of head 1: head 1's weights against its slice of the values. -/
theorem pay5_apply_head1 (v15 v17 : FVec Ideal S2048x64 .bf16) (S1 E0 : FVec Ideal S512x2048 .f32) (r : Fin 512) (d : Fin 64) :
    k3_pay5 v15 v17 S1 E0 (ix3 0 r (pcol 1 d)) = ∑ t : Fin 2048, k3_pay2 S1 (ix2 r t) * v17 (ix2 t d) := by
  unfold k3_pay5
  refine (shapeCast_ab_1ab_apply _ shapeCasts_S512x128_S1x512x128 0 r (pcol 1 d)).trans ?_
  refine (concatenate_pair_apply_right _ _ _ concatenates_S512x64_S512x64_S512x128_d1 (ix2 r (pcol 1 d)) rfl rfl (ix2 r d)
    (fun b hb => by
      match b with
      | ⟨0, _⟩ => rfl
      | ⟨1, _⟩ => exact absurd rfl hb)
    (by show d.val + 64 = 1 * 64 + d.val; omega)).trans ?_
  exact PlainMatmul.matmul_zero_apply dot_S512x2048_S2048x64_S512x64_1_0_0_1_n_n rfl rfl rfl rfl rfl rfl none _ v17 r d

end Cert.KernelIdeal.AttnRegion

end
-- ==== Proof.AttnBody.lean ====
/-
  What the attention body leaves in its two output blocks, read at an index, as functions of the four loaded blocks.

  The [1, 2, 512, 2048] block of additive biases is read one plane per head; plane o is its entries (0, o, ·, ·).  The
  weights block is written as two pieces, head 0's plane at (0, 0, ·, ·) and head 1's at (0, 1, ·, ·): an index of
  plane o lies in exactly that piece, so the block at (0, o, r, t) is head o's weight of row r on key t.  The context
  block is written whole: at (0, r, o·64 + d) it is the sum over keys of head o's weights of row r against column
  o·64 + d of the values.
-/
import proofs.«127580_j11682311045245_2_alg».proof.Proof.AttnPayloadContext

set_option maxRecDepth 16384

noncomputable section

open scoped BigOperators

namespace Cert.KernelIdeal.AttnRegion

open Idealize.ShloMosaic Idealize.ShloMosaic.ValueIdx Cert.KernelIdeal Cert.KernelIdeal.Gen

theorem hz3 : (![0, 0, 0] : Fin 3 → Nat) = fun _ => 0 := funext fun a => by fin_cases a <;> rfl

/-- A head of the pair is head 0 or head 1. -/
theorem head_cases (o : Fin 2) : o = 0 ∨ o = 1 := by
  have := o.isLt
  rcases Nat.lt_or_ge o.val 1 with h | h
  · left; exact Fin.ext (by show o.val = 0; omega)
  · right; exact Fin.ext (by show o.val = 1; omega)

/-- Plane o of a [1, 2, 512, 2048] block, as a [1, 1, 512, 2048] array. -/
def plane (x3 : Vec Ideal S1x2x512x2048 .f32) (o : Fin 2) : Vec Ideal S1x1x512x2048 .f32 :=
  fun j => x3 (ix4 (0 : Fin 1) o (⟨(j 2).val, (j 2).isLt⟩ : Fin 512) (⟨(j 3).val, (j 3).isLt⟩ : Fin 2048))

theorem plane_apply (x3 : Vec Ideal S1x2x512x2048 .f32) (o : Fin 2) (r : Fin 512) (t : Fin 2048) :
    plane x3 o (ix4 0 0 r t) = x3 (ix4 0 o r t) := rfl

/-- The body's load of plane 0. -/
theorem ld_plane0 (x3 : Vec Ideal S1x2x512x2048 .f32) :
    (View.ld x3 r3_2 : Vec Ideal S1x1x512x2048 .f32) = plane x3 0 :=
  funext fun j => congrArg x3 (funext fun a => Fin.ext (by
    have h0 : (j 0).val < 1 := (j 0).isLt
    have h1 : (j 1).val < 1 := (j 1).isLt
    match a with
    | ⟨0, _⟩ => show 0 + 1 * (j 0).val = 0; omega
    | ⟨1, _⟩ => show 0 + 1 * (j 1).val = 0; omega
    | ⟨2, _⟩ => show 0 + 1 * (j 2).val = (j 2).val; omega
    | ⟨3, _⟩ => show 0 + 1 * (j 3).val = (j 3).val; omega))

/-- The body's load of plane 1. -/
theorem ld_plane1 (x3 : Vec Ideal S1x2x512x2048 .f32) :
    (View.ld x3 r3_3 : Vec Ideal S1x1x512x2048 .f32) = plane x3 1 :=
  funext fun j => congrArg x3 (funext fun a => Fin.ext (by
    have h0 : (j 0).val < 1 := (j 0).isLt
    have h1 : (j 1).val < 1 := (j 1).isLt
    match a with
    | ⟨0, _⟩ => show 0 + 1 * (j 0).val = 0; omega
    | ⟨1, _⟩ => show 1 + 1 * (j 1).val = 1; omega
    | ⟨2, _⟩ => show 0 + 1 * (j 2).val = (j 2).val; omega
    | ⟨3, _⟩ => show 0 + 1 * (j 3).val = (j 3).val; omega))

/-- An index of plane 0 of the weights block, under the piece stored there. -/
theorem emb_plane0 (r : Fin 512) (t : Fin 2048) :
    (ix4 (0 : Fin 1) (0 : Fin 2) r t : S1x2x512x2048.Idx) = r3_2.emb (ix4 (0 : Fin 1) (0 : Fin 1) r t) :=
  funext fun a => Fin.ext (by
    match a with
    | ⟨0, _⟩ => show 0 = 0 + 1 * 0; omega
    | ⟨1, _⟩ => show 0 = 0 + 1 * 0; omega
    | ⟨2, _⟩ => show r.val = 0 + 1 * r.val; omega
    | ⟨3, _⟩ => show t.val = 0 + 1 * t.val; omega)

/-- An index of plane 1 of the weights block, under the piece stored there. -/
theorem emb_plane1 (r : Fin 512) (t : Fin 2048) :
    (ix4 (0 : Fin 1) (1 : Fin 2) r t : S1x2x512x2048.Idx) = r3_3.emb (ix4 (0 : Fin 1) (0 : Fin 1) r t) :=
  funext fun a => Fin.ext (by
    match a with
    | ⟨0, _⟩ => show 0 = 0 + 1 * 0; omega
    | ⟨1, _⟩ => show 1 = 1 + 1 * 0; omega
    | ⟨2, _⟩ => show r.val = 0 + 1 * r.val; omega
    | ⟨3, _⟩ => show t.val = 0 + 1 * t.val; omega)

/-- An index of plane 0 is outside the piece stored over plane 1. -/
theorem plane0_not_mem (r : Fin 512) (t : Fin 2048) :
    (ix4 (0 : Fin 1) (0 : Fin 2) r t : S1x2x512x2048.Idx) ∉ r3_3.set := fun h => by
  rw [Rect.mem_set_unit] at h
  have h1 : (1 : ℕ) ≤ 0 := (h 1).1
  omega

/-- Two pieces stored over the two planes, read on plane 0: the piece stored there. -/
theorem canon_plane0 (w1 w0 : Vec Ideal S1x1x512x2048 .f32) (r : Fin 512) (t : Fin 2048) :
    View.canon [(⟨r3_3, w1⟩ : View.Piece (Elt Ideal) S1x2x512x2048 .f32), ⟨r3_2, w0⟩] (ix4 (0 : Fin 1) (0 : Fin 2) r t)
      = w0 (ix4 0 0 r t) := by
  refine (View.canon_cons_of_not_mem (⟨r3_3, w1⟩ : View.Piece (Elt Ideal) S1x2x512x2048 .f32) [⟨r3_2, w0⟩]
    (plane0_not_mem r t)).trans ?_
  rw [emb_plane0 r t]
  exact View.canon_cons_emb r3_2 w0 [] (ix4 (0 : Fin 1) (0 : Fin 1) r t)

/-- Two pieces stored over the two planes, read on plane 1: the piece stored there. -/
theorem canon_plane1 (w1 w0 : Vec Ideal S1x1x512x2048 .f32) (r : Fin 512) (t : Fin 2048) :
    View.canon [(⟨r3_3, w1⟩ : View.Piece (Elt Ideal) S1x2x512x2048 .f32), ⟨r3_2, w0⟩] (ix4 (0 : Fin 1) (1 : Fin 2) r t)
      = w1 (ix4 0 0 r t) := by
  rw [emb_plane1 r t]
  exact View.canon_cons_emb r3_3 w1 [⟨r3_2, w0⟩] (ix4 (0 : Fin 1) (0 : Fin 1) r t)

/-- THE WEIGHTS BLOCK after the body, at (0, o, r, t): head o's weight of query row r on key row t. -/
theorem out3_5_apply (x0 : Vec Ideal S1x512x128 .f32) (x1 x2 : Vec Ideal S1x2048x128 .f32) (x3 : Vec Ideal S1x2x512x2048 .f32)
    (o : Fin 2) (r : Fin 512) (t : Fin 2048) :
    out3_5 x0 x1 x2 x3 (ix4 0 o r t) = blkAttn x0 x1 (plane x3 o) o r t := by
  unfold out3_5
  simp only [View.ld_unit_zero (S := S1x512x128) hz3, View.ld_unit_zero (S := S1x2048x128) hz3]
  rw [ld_plane0, ld_plane1]
  rcases head_cases o with rfl | rfl
  · refine (canon_plane0 _ _ r t).trans ?_
    exact (pay3_apply _ r t).trans (weights0_apply x0 x1 (plane x3 0) r t)
  · refine (canon_plane1 _ _ r t).trans ?_
    exact (pay4_apply _ r t).trans (weights1_apply x0 x1 (plane x3 1) r t)

/-- THE CONTEXT BLOCK after the body, at (0, r, o·64 + d): head o's weights of row r against column o·64 + d of the
    values, summed over the keys. -/
theorem out3_4_apply (x0 : Vec Ideal S1x512x128 .f32) (x1 x2 : Vec Ideal S1x2048x128 .f32) (x3 : Vec Ideal S1x2x512x2048 .f32)
    (o : Fin 2) (r : Fin 512) (d : Fin 64) :
    out3_4 x0 x1 x2 x3 (ix3 0 r (pcol o d))
      = ∑ t : Fin 2048, blkAttn x0 x1 (plane x3 o) o r t * x2 (ix3 0 t (pcol o d)) := by
  unfold out3_4
  rw [View.canon_unit_zero hz3]
  simp only [View.ld_unit_zero (S := S1x512x128) hz3, View.ld_unit_zero (S := S1x2048x128) hz3]
  rw [ld_plane0, ld_plane1]
  rcases head_cases o with rfl | rfl
  · exact (pay5_apply_head0 _ _ _ _ r d).trans (Finset.sum_congr rfl fun t _ =>
      congrArg₂ (· * ·) (weights0_apply x0 x1 (plane x3 0) r t) (pay9_apply x2 t d))
  · exact (pay5_apply_head1 _ _ _ _ r d).trans (Finset.sum_congr rfl fun t _ =>
      congrArg₂ (· * ·) (weights1_apply x0 x1 (plane x3 1) r t) (pay10_apply x2 t d))

end Cert.KernelIdeal.AttnRegion

end
-- ==== Proof.AttnPoint.lean ====
/-
  One grid point of the attention region against the specification.

  A grid point (b, hg, sq) holds batch b, the pair of heads 2·hg and 2·hg + 1 (model columns hg·128 … hg·128 + 127) and
  the query rows sq·512 … sq·512 + 511: its query block is Q[b, sq·512 + p, hg·128 + l], its key and value blocks are
  K, V[b, r, hg·128 + l], its bias block is P[b, hg·2 + u, sq·512 + p, r].  Column hg·128 + (u·64 + d) of the model axis
  is coordinate d of head hg·2 + u, so the block-level score, maximum, exponential, row sum, weight and context of
  head u of the pair are the specification's for head hg·2 + u at query row sq·512 + p, term by term.
-/
import proofs.«127580_j11682311045245_2_alg».proof.Proof.AttnBody
import proofs.«127580_j11682311045245_2_alg».proof.Proof.Spec

set_option maxRecDepth 16384

noncomputable section

open scoped BigOperators

namespace Cert.KernelIdeal.AttnRegion

open Idealize.ShloMosaic Idealize.ShloMosaic.ValueIdx Cert.KernelIdeal Cert.KernelIdeal.Gen Cert.Attn

/-- Query row sq·512 + p of the sequence. -/
def qrow (sq : Fin 4) (p : Fin 512) : Fin 2048 := ⟨sq.val * 512 + p.val, by have := sq.isLt; have := p.isLt; omega⟩
/-- Model column hg·128 + l. -/
def mcol (hg : Fin 8) (l : Fin 128) : Fin 1024 := ⟨hg.val * 128 + l.val, by have := hg.isLt; have := l.isLt; omega⟩
/-- Head hg·2 + u. -/
def hd (hg : Fin 8) (u : Fin 2) : Fin 16 := ⟨hg.val * 2 + u.val, by have := hg.isLt; have := u.isLt; omega⟩

theorem qrow_val (sq : Fin 4) (p : Fin 512) : (qrow sq p).val = sq.val * 512 + p.val := rfl
theorem mcol_val (hg : Fin 8) (l : Fin 128) : (mcol hg l).val = hg.val * 128 + l.val := rfl
theorem hd_val (hg : Fin 8) (u : Fin 2) : (hd hg u).val = hg.val * 2 + u.val := rfl

/-- Column u·64 + d of the pair hg is coordinate d of head hg·2 + u. -/
theorem mcol_pcol (hg : Fin 8) (u : Fin 2) (d : Fin 64) : mcol hg (pcol u d) = col (hd hg u) d :=
  Fin.ext (by
    show hg.val * 128 + (u.val * 64 + d.val) = (hg.val * 2 + u.val) * 64 + d.val
    omega)

/-- Every column of a pair is some head's coordinate. -/
theorem exists_pcol (l : Fin 128) : ∃ (u : Fin 2) (d : Fin 64), l = pcol u d :=
  ⟨⟨l.val / 64, by have := l.isLt; omega⟩, ⟨l.val % 64, Nat.mod_lt _ (by decide)⟩,
    Fin.ext (by show l.val = l.val / 64 * 64 + l.val % 64; omega)⟩

section Point

variable (Q K W : FVec Ideal SAct .f32) (Pv : FVec Ideal SP .f32)
variable (x0 : Vec Ideal S1x512x128 .f32) (x1 x2 : Vec Ideal S1x2048x128 .f32) (x3 : Vec Ideal S1x2x512x2048 .f32)
variable (b : Fin 2) (hg : Fin 8) (sq : Fin 4)

/-- The score of head u of the pair is the specification's for head hg·2 + u. -/
theorem blkScore_eq
    (h0 : ∀ (p : Fin 512) (l : Fin 128), x0 (ix3 0 p l) = Q (ix3 b (qrow sq p) (mcol hg l)))
    (h1 : ∀ (r : Fin 2048) (l : Fin 128), x1 (ix3 0 r l) = K (ix3 b r (mcol hg l)))
    (h3 : ∀ (u : Fin 2) (p : Fin 512) (r : Fin 2048), x3 (ix4 0 u p r) = Pv (ix4 b (hd hg u) (qrow sq p) r))
    (u : Fin 2) (p : Fin 512) (r : Fin 2048) :
    blkScore x0 x1 (plane x3 u) u p r = scoreAt Q K Pv b (hd hg u) (qrow sq p) r := by
  unfold blkScore scoreAt
  refine congrArg₂ (fun s c => s * Ideal.ofBits .f32 0x3E000000#32 + c) (Finset.sum_congr rfl fun d _ => ?_)
    ((plane_apply x3 u p r).trans (h3 u p r))
  exact congrArg₂ (· * ·)
    ((h0 p (pcol u d)).trans (congrArg (fun e => Q (ix3 b (qrow sq p) e)) (mcol_pcol hg u d)))
    ((h1 r (pcol u d)).trans (congrArg (fun e => K (ix3 b r e)) (mcol_pcol hg u d)))

/-- Its row maximum. -/
theorem blkRowMax_eq
    (h0 : ∀ (p : Fin 512) (l : Fin 128), x0 (ix3 0 p l) = Q (ix3 b (qrow sq p) (mcol hg l)))
    (h1 : ∀ (r : Fin 2048) (l : Fin 128), x1 (ix3 0 r l) = K (ix3 b r (mcol hg l)))
    (h3 : ∀ (u : Fin 2) (p : Fin 512) (r : Fin 2048), x3 (ix4 0 u p r) = Pv (ix4 b (hd hg u) (qrow sq p) r))
    (u : Fin 2) (p : Fin 512) :
    blkRowMax x0 x1 (plane x3 u) u p = rowMax Q K Pv b (hd hg u) (qrow sq p) := by
  unfold blkRowMax rowMax
  exact congrArg (fun f => Finset.fold max (Ideal.ofBits .f32 0xFF800000#32) f (Finset.univ : Finset (Fin 2048)))
    (funext fun r => blkScore_eq Q K Pv x0 x1 x3 b hg sq h0 h1 h3 u p r)

/-- Its weights. -/
theorem blkAttn_eq
    (h0 : ∀ (p : Fin 512) (l : Fin 128), x0 (ix3 0 p l) = Q (ix3 b (qrow sq p) (mcol hg l)))
    (h1 : ∀ (r : Fin 2048) (l : Fin 128), x1 (ix3 0 r l) = K (ix3 b r (mcol hg l)))
    (h3 : ∀ (u : Fin 2) (p : Fin 512) (r : Fin 2048), x3 (ix4 0 u p r) = Pv (ix4 b (hd hg u) (qrow sq p) r))
    (u : Fin 2) (p : Fin 512) (r : Fin 2048) :
    blkAttn x0 x1 (plane x3 u) u p r = attnAt Q K Pv b (hd hg u) (qrow sq p) r := by
  have hE : ∀ r' : Fin 2048, blkExp x0 x1 (plane x3 u) u p r' = expAt Q K Pv b (hd hg u) (qrow sq p) r' := fun r' => by
    unfold blkExp expAt
    exact congrArg₂ (fun s m => Ideal.exp (s - m)) (blkScore_eq Q K Pv x0 x1 x3 b hg sq h0 h1 h3 u p r')
      (blkRowMax_eq Q K Pv x0 x1 x3 b hg sq h0 h1 h3 u p)
  unfold blkAttn attnAt blkRowSum rowSum
  exact congrArg₂ Ideal.div (hE r) (Finset.sum_congr rfl fun r' _ => hE r')

/-- THE WEIGHTS BLOCK of the point against the specification's array. -/
theorem weights_block
    (h0 : ∀ (p : Fin 512) (l : Fin 128), x0 (ix3 0 p l) = Q (ix3 b (qrow sq p) (mcol hg l)))
    (h1 : ∀ (r : Fin 2048) (l : Fin 128), x1 (ix3 0 r l) = K (ix3 b r (mcol hg l)))
    (h3 : ∀ (u : Fin 2) (p : Fin 512) (r : Fin 2048), x3 (ix4 0 u p r) = Pv (ix4 b (hd hg u) (qrow sq p) r))
    (u : Fin 2) (p : Fin 512) (r : Fin 2048) :
    out3_5 x0 x1 x2 x3 (ix4 0 u p r) = attnArr Q K Pv (ix4 b (hd hg u) (qrow sq p) r) :=
  (out3_5_apply x0 x1 x2 x3 u p r).trans
    ((blkAttn_eq Q K Pv x0 x1 x3 b hg sq h0 h1 h3 u p r).trans (attnArr_apply Q K Pv b (hd hg u) (qrow sq p) r).symm)

/-- THE CONTEXT BLOCK of the point against the specification's array. -/
theorem context_block
    (h0 : ∀ (p : Fin 512) (l : Fin 128), x0 (ix3 0 p l) = Q (ix3 b (qrow sq p) (mcol hg l)))
    (h1 : ∀ (r : Fin 2048) (l : Fin 128), x1 (ix3 0 r l) = K (ix3 b r (mcol hg l)))
    (h2 : ∀ (r : Fin 2048) (l : Fin 128), x2 (ix3 0 r l) = W (ix3 b r (mcol hg l)))
    (h3 : ∀ (u : Fin 2) (p : Fin 512) (r : Fin 2048), x3 (ix4 0 u p r) = Pv (ix4 b (hd hg u) (qrow sq p) r))
    (p : Fin 512) (l : Fin 128) :
    out3_4 x0 x1 x2 x3 (ix3 0 p l) = ctxArr Q K W Pv (ix3 b (qrow sq p) (mcol hg l)) := by
  obtain ⟨u, d, rfl⟩ := exists_pcol l
  refine (out3_4_apply x0 x1 x2 x3 u p d).trans ?_
  rw [mcol_pcol, ctxArr_apply]
  unfold ctxAt
  exact Finset.sum_congr rfl fun r _ => congrArg₂ (· * ·)
    (blkAttn_eq Q K Pv x0 x1 x3 b hg sq h0 h1 h3 u p r)
    ((h2 r (pcol u d)).trans (congrArg (fun e => W (ix3 b r e)) (mcol_pcol hg u d)))

end Point

end Cert.KernelIdeal.AttnRegion

end
-- ==== Proof.AttnBlocks.lean ====
/-
  The geometry of the attention region: which part of each array a grid point sees.

  The grid is (batch, head pair, query tile) = (2, 8, 4), 64 points in row-major order, so point t has batch t / 32,
  head pair (t / 4) % 8 and query tile t % 4. At that point the query window and the context window are rows
  [512·sq, 512·sq + 512) and model columns [128·hg, 128·hg + 128) of batch b; the key and value windows are all 2048 rows
  and the same 128 columns; the additive-bias window and the weights window are heads 2·hg and 2·hg + 1, the same 512
  query rows and all 2048 keys. Model column 128·hg + (64·u + d) is head 2·hg + u at head coordinate d. The context
  blocks tile [2, 2048, 1024] and the weights blocks tile [2, 16, 2048, 2048].
-/
import proofs.«127580_j11682311045245_2_alg».proof.Proof.Gen.KernelIdeal.Frame
import proofs.«127580_j11682311045245_2_alg».proof.Proof.Spec
import Idealize.ShloMosaic.Lib.Pipeline.Value
import Idealize.ShloMosaic.Lib.ValueIdx

set_option maxRecDepth 16384

noncomputable section

namespace Cert.KernelIdeal.AttnBlocks

open Cert.KernelIdeal Cert.KernelIdeal.Gen Cert.Attn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## A grid point's coordinates -/

theorem point_lt (t : Fin cfg3.N) : t.val < 64 := by
  have h : t.val < grid3.N := t.isLt
  rw [N_3] at h; exact h

/-- The batch of point t. -/
def batchOf (t : Fin cfg3.N) : Fin 2 := ⟨t.val / 32, by have := point_lt t; omega⟩
/-- The head pair of point t. -/
def pairOf (t : Fin cfg3.N) : Fin 8 := ⟨t.val / 4 % 8, by omega⟩
/-- The query tile of point t. -/
def tileOf (t : Fin cfg3.N) : Fin 4 := ⟨t.val % 4, by omega⟩

theorem batchOf_val (t : Fin cfg3.N) : (batchOf t).val = t.val / 32 := rfl
theorem pairOf_val (t : Fin cfg3.N) : (pairOf t).val = t.val / 4 % 8 := rfl
theorem tileOf_val (t : Fin cfg3.N) : (tileOf t).val = t.val % 4 := rfl

/-- Row p of query tile sq. -/
def tileRow (sq : Fin 4) (p : Fin 512) : Fin 2048 := ⟨sq.val * 512 + p.val, by have := sq.isLt; have := p.isLt; omega⟩
/-- Column l of head pair hg's 128 model columns. -/
def pairCol (hg : Fin 8) (l : Fin 128) : Fin 1024 := ⟨hg.val * 128 + l.val, by have := hg.isLt; have := l.isLt; omega⟩
/-- Head u of head pair hg. -/
def pairHead (hg : Fin 8) (u : Fin 2) : Fin 16 := ⟨hg.val * 2 + u.val, by have := hg.isLt; have := u.isLt; omega⟩
/-- Head coordinate d of the pair's head u, as a column of the pair's 128. -/
def halfCol (u : Fin 2) (d : Fin 64) : Fin 128 := ⟨u.val * 64 + d.val, by have := u.isLt; have := d.isLt; omega⟩

theorem tileRow_val (sq : Fin 4) (p : Fin 512) : (tileRow sq p).val = sq.val * 512 + p.val := rfl
theorem pairCol_val (hg : Fin 8) (l : Fin 128) : (pairCol hg l).val = hg.val * 128 + l.val := rfl
theorem pairHead_val (hg : Fin 8) (u : Fin 2) : (pairHead hg u).val = hg.val * 2 + u.val := rfl
theorem halfCol_val (u : Fin 2) (d : Fin 64) : (halfCol u d).val = u.val * 64 + d.val := rfl

/-- Column 64·u + d of head pair hg is model column (2·hg + u)·64 + d: head 2·hg + u at head coordinate d. -/
theorem pairCol_halfCol (hg : Fin 8) (u : Fin 2) (d : Fin 64) : pairCol hg (halfCol u d) = col (pairHead hg u) d :=
  Fin.ext (by show hg.val * 128 + (u.val * 64 + d.val) = (hg.val * 2 + u.val) * 64 + d.val; omega)

/-- Every column of the pair's 128 is some head's coordinate. -/
theorem eq_halfCol (l : Fin 128) : ∃ (u : Fin 2) (d : Fin 64), l = halfCol u d :=
  ⟨⟨l.val / 64, by have := l.isLt; omega⟩, ⟨l.val % 64, Nat.mod_lt _ (by decide)⟩,
    Fin.ext (by show l.val = l.val / 64 * 64 + l.val % 64; omega)⟩

/-- The printed index maps over the 64 grid points, through the point's batch, head pair and query tile. -/
theorem maps : ∀ t : Fin cfg3.N,
    (win3_0.index t (0 : Fin 3) = t.val / 32 ∧ win3_0.index t (1 : Fin 3) = t.val % 4 ∧ win3_0.index t (2 : Fin 3) = t.val / 4 % 8)
    ∧ (win3_1.index t (0 : Fin 3) = t.val / 32 ∧ win3_1.index t (1 : Fin 3) = 0 ∧ win3_1.index t (2 : Fin 3) = t.val / 4 % 8)
    ∧ (win3_2.index t (0 : Fin 3) = t.val / 32 ∧ win3_2.index t (1 : Fin 3) = 0 ∧ win3_2.index t (2 : Fin 3) = t.val / 4 % 8)
    ∧ (win3_3.index t (0 : Fin 4) = t.val / 32 ∧ win3_3.index t (1 : Fin 4) = t.val / 4 % 8 ∧ win3_3.index t (2 : Fin 4) = t.val % 4
        ∧ win3_3.index t (3 : Fin 4) = 0)
    ∧ (win3_4.index t (0 : Fin 3) = t.val / 32 ∧ win3_4.index t (1 : Fin 3) = t.val % 4 ∧ win3_4.index t (2 : Fin 3) = t.val / 4 % 8)
    ∧ (win3_5.index t (0 : Fin 4) = t.val / 32 ∧ win3_5.index t (1 : Fin 4) = t.val / 4 % 8 ∧ win3_5.index t (2 : Fin 4) = t.val % 4
        ∧ win3_5.index t (3 : Fin 4) = 0) :=
  (by decide +kernel : ∀ t : Fin grid3.N, _)

/-- Every (batch, head pair, query tile) is some point's. -/
theorem maps_onto (b : Fin 2) (hg : Fin 8) (sq : Fin 4) :
    ∃ t : Fin cfg3.N, batchOf t = b ∧ pairOf t = hg ∧ tileOf t = sq := by
  have := b.isLt; have := hg.isLt; have := sq.isLt
  refine ⟨⟨b.val * 32 + hg.val * 4 + sq.val, by show _ < grid3.N; rw [N_3]; omega⟩, Fin.ext ?_, Fin.ext ?_, Fin.ext ?_⟩
  · show (b.val * 32 + hg.val * 4 + sq.val) / 32 = b.val; omega
  · show (b.val * 32 + hg.val * 4 + sq.val) / 4 % 8 = hg.val; omega
  · show (b.val * 32 + hg.val * 4 + sq.val) % 4 = sq.val; omega

/-! ## The input windows' blocks, read at literal coordinates -/

/-- The query block at (0, p, l) is the queries at batch b, row 512·sq + p, column 128·hg + l. -/
theorem iblk_q (c : Dev nD) (t : Fin cfg3.N) (p : Fin 512) (l : Fin 128) :
    iblk3 V c 0 t (ix3 (0 : Fin 1) p l) = V c main_v9 (ix3 (batchOf t) (tileRow (tileOf t) p) (pairCol (pairOf t) l)) := by
  obtain ⟨⟨e0, e1, e2⟩, -⟩ := maps t
  show V c main_v9 (((cfg3.win 0).blk t).view.emb (ix3 (0 : Fin 1) p l)) = _
  refine congrArg (V c main_v9) (funext fun a => Fin.ext ?_)
  match a with
  | ⟨0, _⟩ => show win3_0.index t (0 : Fin 3) * 1 + 1 * 0 = t.val / 32; omega
  | ⟨1, _⟩ => show win3_0.index t (1 : Fin 3) * 512 + 1 * p.val = t.val % 4 * 512 + p.val; omega
  | ⟨2, _⟩ => show win3_0.index t (2 : Fin 3) * 128 + 1 * l.val = t.val / 4 % 8 * 128 + l.val; omega

/-- The key block at (0, r, l) is the keys at batch b, row r, column 128·hg + l. -/
theorem iblk_k (c : Dev nD) (t : Fin cfg3.N) (r : Fin 2048) (l : Fin 128) :
    iblk3 V c 1 t (ix3 (0 : Fin 1) r l) = V c main_v10 (ix3 (batchOf t) r (pairCol (pairOf t) l)) := by
  obtain ⟨-, ⟨e0, e1, e2⟩, -⟩ := maps t
  show V c main_v10 (((cfg3.win 1).blk t).view.emb (ix3 (0 : Fin 1) r l)) = _
  refine congrArg (V c main_v10) (funext fun a => Fin.ext ?_)
  match a with
  | ⟨0, _⟩ => show win3_1.index t (0 : Fin 3) * 1 + 1 * 0 = t.val / 32; omega
  | ⟨1, _⟩ => show win3_1.index t (1 : Fin 3) * 2048 + 1 * r.val = r.val; omega
  | ⟨2, _⟩ => show win3_1.index t (2 : Fin 3) * 128 + 1 * l.val = t.val / 4 % 8 * 128 + l.val; omega

/-- The value block at (0, r, l) is the values at batch b, row r, column 128·hg + l. -/
theorem iblk_v (c : Dev nD) (t : Fin cfg3.N) (r : Fin 2048) (l : Fin 128) :
    iblk3 V c 2 t (ix3 (0 : Fin 1) r l) = V c main_v11 (ix3 (batchOf t) r (pairCol (pairOf t) l)) := by
  obtain ⟨-, -, ⟨e0, e1, e2⟩, -⟩ := maps t
  show V c main_v11 (((cfg3.win 2).blk t).view.emb (ix3 (0 : Fin 1) r l)) = _
  refine congrArg (V c main_v11) (funext fun a => Fin.ext ?_)
  match a with
  | ⟨0, _⟩ => show win3_2.index t (0 : Fin 3) * 1 + 1 * 0 = t.val / 32; omega
  | ⟨1, _⟩ => show win3_2.index t (1 : Fin 3) * 2048 + 1 * r.val = r.val; omega
  | ⟨2, _⟩ => show win3_2.index t (2 : Fin 3) * 128 + 1 * l.val = t.val / 4 % 8 * 128 + l.val; omega

/-- The additive-bias block at (0, u, p, r) is the bias at batch b, head 2·hg + u, query 512·sq + p, key r. -/
theorem iblk_prev (c : Dev nD) (t : Fin cfg3.N) (u : Fin 2) (p : Fin 512) (r : Fin 2048) :
    iblk3 V c 3 t (ix4 (0 : Fin 1) u p r)
      = V c main_arg3 (ix4 (batchOf t) (pairHead (pairOf t) u) (tileRow (tileOf t) p) r) := by
  obtain ⟨-, -, -, ⟨e0, e1, e2, e3⟩, -⟩ := maps t
  show V c main_arg3 (((cfg3.win 3).blk t).view.emb (ix4 (0 : Fin 1) u p r)) = _
  refine congrArg (V c main_arg3) (funext fun a => Fin.ext ?_)
  match a with
  | ⟨0, _⟩ => show win3_3.index t (0 : Fin 4) * 1 + 1 * 0 = t.val / 32; omega
  | ⟨1, _⟩ => show win3_3.index t (1 : Fin 4) * 2 + 1 * u.val = t.val / 4 % 8 * 2 + u.val; omega
  | ⟨2, _⟩ => show win3_3.index t (2 : Fin 4) * 512 + 1 * p.val = t.val % 4 * 512 + p.val; omega
  | ⟨3, _⟩ => show win3_3.index t (3 : Fin 4) * 2048 + 1 * r.val = r.val; omega

/-! ## Where the output windows' blocks sit -/

/-- Entry (0, p, l) of the context block sits at batch b, row 512·sq + p, column 128·hg + l. -/
theorem emb_ctx (t : Fin cfg3.N) (p : Fin 512) (l : Fin 128) :
    ((cfg3.win 4).blk t).view.emb (ix3 (0 : Fin 1) p l) = ix3 (batchOf t) (tileRow (tileOf t) p) (pairCol (pairOf t) l) := by
  obtain ⟨-, -, -, -, ⟨e0, e1, e2⟩, -⟩ := maps t
  refine funext fun a => Fin.ext ?_
  match a with
  | ⟨0, _⟩ => show win3_4.index t (0 : Fin 3) * 1 + 1 * 0 = t.val / 32; omega
  | ⟨1, _⟩ => show win3_4.index t (1 : Fin 3) * 512 + 1 * p.val = t.val % 4 * 512 + p.val; omega
  | ⟨2, _⟩ => show win3_4.index t (2 : Fin 3) * 128 + 1 * l.val = t.val / 4 % 8 * 128 + l.val; omega

/-- Entry (0, u, p, r) of the weights block sits at batch b, head 2·hg + u, query 512·sq + p, key r. -/
theorem emb_attn (t : Fin cfg3.N) (u : Fin 2) (p : Fin 512) (r : Fin 2048) :
    ((cfg3.win 5).blk t).view.emb (ix4 (0 : Fin 1) u p r)
      = ix4 (batchOf t) (pairHead (pairOf t) u) (tileRow (tileOf t) p) r := by
  obtain ⟨-, -, -, -, -, ⟨e0, e1, e2, e3⟩⟩ := maps t
  refine funext fun a => Fin.ext ?_
  match a with
  | ⟨0, _⟩ => show win3_5.index t (0 : Fin 4) * 1 + 1 * 0 = t.val / 32; omega
  | ⟨1, _⟩ => show win3_5.index t (1 : Fin 4) * 2 + 1 * u.val = t.val / 4 % 8 * 2 + u.val; omega
  | ⟨2, _⟩ => show win3_5.index t (2 : Fin 4) * 512 + 1 * p.val = t.val % 4 * 512 + p.val; omega
  | ⟨3, _⟩ => show win3_5.index t (3 : Fin 4) * 2048 + 1 * r.val = r.val; omega

/-! ## The output blocks tile their arrays -/

/-- An index of the context array is in point t's block iff each coordinate is in the block's range on its axis. -/
theorem mem_block4 (t : Fin cfg3.N) (i : S2x2048x1024.Idx) :
    i ∈ ((cfg3.win 4).blk t).view.set ↔ ∀ a : Fin 3, win3_4.index t a * S1x512x128.size a ≤ (i a).val
      ∧ (i a).val < win3_4.index t a * S1x512x128.size a + S1x512x128.size a := by
  show i ∈ ((View.whole main_v12_0).slice (win3_4.rect t)).set ↔ _
  rw [View.set_slice_whole, Rect.mem_set_unit]
  exact Iff.rfl

/-- An index of the weights array is in point t's block iff each coordinate is in the block's range on its axis. -/
theorem mem_block5 (t : Fin cfg3.N) (i : S2x16x2048x2048.Idx) :
    i ∈ ((cfg3.win 5).blk t).view.set ↔ ∀ a : Fin 4, win3_5.index t a * S1x2x512x2048.size a ≤ (i a).val
      ∧ (i a).val < win3_5.index t a * S1x2x512x2048.size a + S1x2x512x2048.size a := by
  show i ∈ ((View.whole main_v12_1).slice (win3_5.rect t)).set ↔ _
  rw [View.set_slice_whole, Rect.mem_set_unit]
  exact Iff.rfl

/-- The 64 context blocks cover [2, 2048, 1024]: (b, s, e) is in the block of batch b, head pair e / 128, tile s / 512. -/
theorem covered4 (i : S2x2048x1024.Idx) :
    ∃ t : Fin cfg3.N, (cfg3.win 4).flush t = true ∧ i ∈ ((cfg3.win 4).blk t).view.set := by
  have hi0 : (i 0).val < 2 := (i 0).isLt
  have hi1 : (i 1).val < 2048 := (i 1).isLt
  have hi2 : (i 2).val < 1024 := (i 2).isLt
  obtain ⟨t, hb, hg, hs⟩ := maps_onto ⟨(i 0).val, hi0⟩ ⟨(i 2).val / 128, by omega⟩ ⟨(i 1).val / 512, by omega⟩
  have qb : t.val / 32 = (i 0).val := congrArg Fin.val hb
  have qg : t.val / 4 % 8 = (i 2).val / 128 := congrArg Fin.val hg
  have qs : t.val % 4 = (i 1).val / 512 := congrArg Fin.val hs
  obtain ⟨-, -, -, -, ⟨e0, e1, e2⟩, -⟩ := maps t
  refine ⟨t, flush3_4 t, ?_⟩
  rw [mem_block4]
  intro a
  match a with
  | ⟨0, _⟩ => show win3_4.index t (0 : Fin 3) * 1 ≤ (i 0).val ∧ (i 0).val < win3_4.index t (0 : Fin 3) * 1 + 1; omega
  | ⟨1, _⟩ => show win3_4.index t (1 : Fin 3) * 512 ≤ (i 1).val ∧ (i 1).val < win3_4.index t (1 : Fin 3) * 512 + 512; omega
  | ⟨2, _⟩ => show win3_4.index t (2 : Fin 3) * 128 ≤ (i 2).val ∧ (i 2).val < win3_4.index t (2 : Fin 3) * 128 + 128; omega

/-- The 64 weights blocks cover [2, 16, 2048, 2048]: (b, h, s, r) is in the block of batch b, head pair h / 2, tile s / 512. -/
theorem covered5 (i : S2x16x2048x2048.Idx) :
    ∃ t : Fin cfg3.N, (cfg3.win 5).flush t = true ∧ i ∈ ((cfg3.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, hb, hg, hs⟩ := maps_onto ⟨(i 0).val, hi0⟩ ⟨(i 1).val / 2, by omega⟩ ⟨(i 2).val / 512, by omega⟩
  have qb : t.val / 32 = (i 0).val := congrArg Fin.val hb
  have qg : t.val / 4 % 8 = (i 1).val / 2 := congrArg Fin.val hg
  have qs : t.val % 4 = (i 2).val / 512 := congrArg Fin.val hs
  obtain ⟨-, -, -, -, -, ⟨e0, e1, e2, e3⟩⟩ := maps t
  refine ⟨t, flush3_5 t, ?_⟩
  rw [mem_block5]
  intro a
  match a with
  | ⟨0, _⟩ => show win3_5.index t (0 : Fin 4) * 1 ≤ (i 0).val ∧ (i 0).val < win3_5.index t (0 : Fin 4) * 1 + 1; omega
  | ⟨1, _⟩ => show win3_5.index t (1 : Fin 4) * 2 ≤ (i 1).val ∧ (i 1).val < win3_5.index t (1 : Fin 4) * 2 + 2; omega
  | ⟨2, _⟩ => show win3_5.index t (2 : Fin 4) * 512 ≤ (i 2).val ∧ (i 2).val < win3_5.index t (2 : Fin 4) * 512 + 512; omega
  | ⟨3, _⟩ => show win3_5.index t (3 : Fin 4) * 2048 ≤ (i 3).val ∧ (i 3).val < win3_5.index t (3 : Fin 4) * 2048 + 2048; omega

end Cert.KernelIdeal.AttnBlocks

end
-- ==== Proof.AttnRegion.lean ====
/-
  The attention region's two arrays.

  Grid point t = (b, hg, sq) writes back block (b, hg, sq, 0) of the [2, 16, 2048, 2048] weights and block (b, sq, hg) of
  the [2, 2048, 1024] contexts.  Its input blocks are the query, key, value and bias arrays read at the same batch, head
  pair and query tile, so what it writes is the specification's weights and contexts read through the block; the 64
  blocks of each output tile its array, so after the region the arrays are the specification's.
-/
import proofs.«127580_j11682311045245_2_alg».proof.Proof.AttnPoint
import proofs.«127580_j11682311045245_2_alg».proof.Proof.AttnBlocks
import Idealize.ShloMosaic.Lib.Pipeline.Value

set_option maxRecDepth 16384

noncomputable section

namespace Cert.KernelIdeal.AttnRegion

open Cert.KernelIdeal Cert.KernelIdeal.Gen Cert.Attn Cert.KernelIdeal.AttnBlocks
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- What point t writes back to the weights is block t of the specification's weights on the arrays the region finds. -/
theorem written_weights (c : Dev nD) (t : Fin cfg3.N) :
    (dat3 V c).flushed 5 t
      = ((cfg3.win 5).blk t).view.read (Elt Ideal) (attnArr (V c main_v9) (V c main_v10) (V c main_arg3)) := by
  show (cfg3.win 5).cut (grid3.coords t) ((dat3 V c).after 5 t) = _
  rw [after3_5]
  refine funext fun (j : S1x2x512x2048.Idx) => ?_
  obtain ⟨z, u, p, r, rfl⟩ : ∃ (z : Fin 1) (u : Fin 2) (p : Fin 512) (r : Fin 2048), j = ix4 z u p r :=
    ⟨j 0, j 1, j 2, j 3, eq_ix4 j⟩
  obtain rfl : z = 0 := Subsingleton.elim _ _
  refine (weights_block (V c main_v9) (V c main_v10) (V c main_arg3)
    (iblk3 V c 0 t) (iblk3 V c 1 t) (iblk3 V c 2 t) (iblk3 V c 3 t) (batchOf t) (pairOf t) (tileOf t)
    (fun p l => iblk_q V c t p l) (fun r l => iblk_k V c t r l) (fun u p r => iblk_prev V c t u p r) u p r).trans ?_
  show _ = attnArr (V c main_v9) (V c main_v10) (V c main_arg3) (((cfg3.win 5).blk t).view.emb (ix4 (0 : Fin 1) u p r))
  rw [emb_attn t u p r]
  rfl

/-- What point t writes back to the contexts is block t of the specification's contexts on the arrays the region finds. -/
theorem written_contexts (c : Dev nD) (t : Fin cfg3.N) :
    (dat3 V c).flushed 4 t
      = ((cfg3.win 4).blk t).view.read (Elt Ideal)
          (ctxArr (V c main_v9) (V c main_v10) (V c main_v11) (V c main_arg3)) := by
  show (cfg3.win 4).cut (grid3.coords t) ((dat3 V c).after 4 t) = _
  rw [after3_4]
  refine funext fun (j : S1x512x128.Idx) => ?_
  obtain ⟨z, p, l, rfl⟩ : ∃ (z : Fin 1) (p : Fin 512) (l : Fin 128), j = ix3 z p l := ⟨j 0, j 1, j 2, eq_ix3 j⟩
  obtain rfl : z = 0 := Subsingleton.elim _ _
  refine (context_block (V c main_v9) (V c main_v10) (V c main_v11) (V c main_arg3)
    (iblk3 V c 0 t) (iblk3 V c 1 t) (iblk3 V c 2 t) (iblk3 V c 3 t) (batchOf t) (pairOf t) (tileOf t)
    (fun p l => iblk_q V c t p l) (fun r l => iblk_k V c t r l) (fun r l => iblk_v V c t r l)
    (fun u p r => iblk_prev V c t u p r) p l).trans ?_
  show _ = ctxArr (V c main_v9) (V c main_v10) (V c main_v11) (V c main_arg3)
    (((cfg3.win 4).blk t).view.emb (ix3 (0 : Fin 1) p l))
  rw [emb_ctx t p l]
  rfl

/-- THE WEIGHTS after the region: the specification's softmax weights of the arrays the region finds. -/
theorem weights_value (c : Dev nD) :
    (dat3 V c).arrAt 5 cfg3.N = attnArr (V c main_v9) (V c main_v10) (V c main_arg3) :=
  (dat3 V c).arrAt_eq_of_cover 5 (attnArr (V c main_v9) (V c main_v10) (V c main_arg3))
    (fun t _ => written_weights V c t) covered5

/-- THE CONTEXTS after the region: the specification's contexts of the arrays the region finds. -/
theorem contexts_value (c : Dev nD) :
    (dat3 V c).arrAt 4 cfg3.N = ctxArr (V c main_v9) (V c main_v10) (V c main_v11) (V c main_arg3) :=
  (dat3 V c).arrAt_eq_of_cover 4 (ctxArr (V c main_v9) (V c main_v10) (V c main_v11) (V c main_arg3))
    (fun t _ => written_contexts V c t) covered4

end Cert.KernelIdeal.AttnRegion

end
-- ==== Proof.lean ====
/-
  Multi-head attention, five pipelined regions against one jnp program, equal over the extended reals.

  The kernel projects queries, keys and values (three linear regions on the activations flattened to 4096 rows),
  computes per batch and head pair the softmax of the scaled scores plus an additive bias and the weights' product with
  the values (one region over a (2, 8, 4) grid, two heads per point), and projects the contexts (a fourth linear region).
  The reference does the same with einsums, reshapes and transposes. At the ideal values a change of float format is the
  identity and a matrix product is a plain sum, so both programs compute, entry by entry,
    weights[b, h, s, t] = exp (S − max_t S) / ∑_t exp (S − max_t S),  S = (∑_d q[b, s, 64h+d] · k[b, t, 64h+d]) / 8 + prev[b, h, s, t],
    out = the projection of ctx,  ctx[b, s, 64h+d] = ∑_t weights[b, h, s, t] · v[b, t, 64h+d],
  with q, k, v the projections P[b, s, e] = (∑_k X[b, s, k] · W[e, k]) + bias[e]. The sums range over the same index sets
  on both sides and the literals (1/8, −∞, 0) are the same words, so no law of the extended reals beyond reading the
  operations at an index is used, and the precondition is never opened.
-/
import proofs.«127580_j11682311045245_2_alg».proof.Defs
import proofs.«127580_j11682311045245_2_alg».proof.Proof.Gen.Kernel
import proofs.«127580_j11682311045245_2_alg».proof.Proof.Gen.Kernel.Skeleton
import proofs.«127580_j11682311045245_2_alg».proof.Proof.Gen.Kernel.Launch
import proofs.«127580_j11682311045245_2_alg».proof.Proof.Gen.Kernel.Points
import proofs.«127580_j11682311045245_2_alg».proof.Proof.Gen.Kernel.Frame
import proofs.«127580_j11682311045245_2_alg».proof.Proof.Gen.KernelIdeal
import proofs.«127580_j11682311045245_2_alg».proof.Proof.Gen.KernelIdeal.Skeleton
import proofs.«127580_j11682311045245_2_alg».proof.Proof.Gen.KernelIdeal.Launch
import proofs.«127580_j11682311045245_2_alg».proof.Proof.Gen.KernelIdeal.Points
import proofs.«127580_j11682311045245_2_alg».proof.Proof.Gen.KernelIdeal.Frame
import proofs.«127580_j11682311045245_2_alg».proof.Proof.Gen.ReferenceIdeal
import proofs.«127580_j11682311045245_2_alg».proof.Proof.Gen.ReferenceIdeal.Run
import proofs.«127580_j11682311045245_2_alg».proof.Proof.Gen.ReferenceIdeal.Read
import proofs.«127580_j11682311045245_2_alg».proof.Proof.Gen.Pre_finite_inputs
import proofs.«127580_j11682311045245_2_alg».proof.Proof.KernelValue
import proofs.«127580_j11682311045245_2_alg».proof.Proof.RefOut
import proofs.«127580_j11682311045245_2_alg».proof.Proof.AttnRegion
import Idealize.ShloMosaic.Adequacy
import Idealize.ShloMosaic.Init

noncomputable section

namespace Cert.Proof

open Idealize.ShloMosaic Idealize.ShloMosaic.TcCoe Idealize.SL.Sem Cert.Attn

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The ideal pass rewrote nothing. -/
theorem preserves : Cert.preserves_Kernel_KernelIdeal := trivial

/-- Both programs end with the output projection of the contexts and with the attention weights, of arguments that agree. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨_, _, Cert.KernelIdeal.KValue.run m ρ (fun V c => Cert.KernelIdeal.AttnRegion.weights_value V c) (fun V c => Cert.KernelIdeal.AttnRegion.contexts_value V c), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v39_eq, Cert.RefAttn.val_main_v39_eq_projArr, Cert.RefAttn.val_main_v35_eq_ctxArr,
      Cert.RefAttn.val_main_v3_eq_projArr, Cert.RefAttn.val_main_v9_eq_projArr, Cert.RefAttn.val_main_v15_eq_projArr]
    obtain ⟨a0, a1, a2, a3, a4, a5, a6, a7, a8, a9, a10, a11⟩ := hagree c
    rw [a0, a1, a2, a3, a4, a5, a6, a7, a8, a9, a10, a11]
    rfl
  · rw [Cert.ReferenceIdeal.Read.val_main_v32_eq, Cert.RefAttn.val_main_v32_eq_attnArr,
      Cert.RefAttn.val_main_v3_eq_projArr, Cert.RefAttn.val_main_v9_eq_projArr]
    obtain ⟨a0, a1, a2, a3, a4, a5, a6, a7, a8, a9, a10, a11⟩ := hagree c
    rw [a0, a1, a3, a4, a5, a6, a7]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
